-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x512x512 : Shape := ⟨4, ![16, 1, 512, 512]⟩
abbrev S5x16x262144 : Shape := ⟨3, ![5, 16, 262144]⟩
abbrev S_ : Shape := ⟨0, ![]⟩

class Facts : Prop where
  bcast_S_S16x1x512x512 : S_.BroadcastsInDim S16x1x512x512 (![] : Fin 0 → Fin S16x1x512x512.rank)
  reducesTo_S16x1x512x512_S_d0_1_2_3 : S16x1x512x512.ReducesTo [0, 1, 2, 3] S_
  h_S_ : 0 < S_.numel

variable [Facts]

def fn {F : FTy → Type} [FloatOps F] (main_arg0 : FVec F S16x1x512x512 .f32) (main_arg1 : FVec F S16x1x512x512 .f32) (main_arg2 : IVec S5x16x262144 32) : IVec S_ 1 :=
  let main_v0 : FVec F S16x1x512x512 .f32 := Host.absf main_arg0
  let main_cst : FVec F S_ .f32 := constant S_ .f32 0x7F800000#32
  let main_v1 : FVec F S16x1x512x512 .f32 := broadcastInDim S16x1x512x512 ![] bcast_S_S16x1x512x512 main_cst
  let main_v2 : IVec S16x1x512x512 1 := cmpf .olt main_v0 main_v1
  let main_c : IVec S_ 1 := constantI S_ 1 1#1
  let main_v3 : IVec S_ 1 := (fun x v => Host.reduce IntOp.andi x v reducesTo_S16x1x512x512_S_d0_1_2_3 h_S_) main_v2 main_c
  let main_v4 : FVec F S16x1x512x512 .f32 := Host.absf main_arg1
  let main_cst_0 : FVec F S_ .f32 := constant S_ .f32 0x7F800000#32
  let main_v5 : FVec F S16x1x512x512 .f32 := broadcastInDim S16x1x512x512 ![] bcast_S_S16x1x512x512 main_cst_0
  let main_v6 : IVec S16x1x512x512 1 := cmpf .olt main_v4 main_v5
  let main_c_1 : IVec S_ 1 := constantI S_ 1 1#1
  let main_v7 : IVec S_ 1 := (fun x v => Host.reduce IntOp.andi x v reducesTo_S16x1x512x512_S_d0_1_2_3 h_S_) main_v6 main_c_1
  let main_v8 : IVec S_ 1 := andi main_v3 main_v7
  main_v8
-- ==== Kernel.lean ====
abbrev S16x1x512x512 : Shape := ⟨4, ![16, 1, 512, 512]⟩
abbrev S5x16x262144 : Shape := ⟨3, ![5, 16, 262144]⟩
abbrev S16x262144 : Shape := ⟨2, ![16, 262144]⟩
abbrev S16x262144x1 : Shape := ⟨3, ![16, 262144, 1]⟩
abbrev S16x262144x2 : Shape := ⟨3, ![16, 262144, 2]⟩
abbrev S5x16x262144x1 : Shape := ⟨4, ![5, 16, 262144, 1]⟩
abbrev S1x16x262144x2 : Shape := ⟨4, ![1, 16, 262144, 2]⟩
abbrev S_ : Shape := ⟨0, ![]⟩
abbrev S1 : Shape := ⟨1, ![1]⟩
abbrev S1x1x1x1 : Shape := ⟨4, ![1, 1, 1, 1]⟩
abbrev S5x16x262144x2 : Shape := ⟨4, ![5, 16, 262144, 2]⟩
abbrev S2x1x1 : Shape := ⟨3, ![2, 1, 1]⟩
abbrev S8x32768 : Shape := ⟨2, ![8, 32768]⟩
abbrev S5x8x32768 : Shape := ⟨3, ![5, 8, 32768]⟩
abbrev S1x1x1 : Shape := ⟨3, ![1, 1, 1]⟩
abbrev S1x1 : Shape := ⟨2, ![1, 1]⟩
abbrev S1x8x32768 : Shape := ⟨3, ![1, 8, 32768]⟩

abbrev nBuf : Space → Nat
  | .hbm => 44
  | .vmem => 11
  | .smem => 0
  | _ => 0

abbrev bufTy : (tb : Table) → Fin (tcTables nBuf tb) → BufTy
  | .hbm, ⟨0, _⟩ => ⟨S16x1x512x512, .f32⟩
  | .hbm, ⟨1, _⟩ => ⟨S16x1x512x512, .f32⟩
  | .hbm, ⟨2, _⟩ => ⟨S5x16x262144, .i32⟩
  | .hbm, ⟨3, _⟩ => ⟨S16x262144, .f32⟩
  | .hbm, ⟨4, _⟩ => ⟨S16x262144, .f32⟩
  | .hbm, ⟨5, _⟩ => ⟨S16x262144x1, .f32⟩
  | .hbm, ⟨6, _⟩ => ⟨S16x262144x1, .f32⟩
  | .hbm, ⟨7, _⟩ => ⟨S16x262144x2, .f32⟩
  | .hbm, ⟨8, _⟩ => ⟨S5x16x262144x1, .i32⟩
  | .hbm, ⟨9, _⟩ => ⟨S1x16x262144x2, .f32⟩
  | .hbm, ⟨10, _⟩ => ⟨S_, .i32⟩
  | .hbm, ⟨11, _⟩ => ⟨S5x16x262144x1, .i32⟩
  | .hbm, ⟨12, _⟩ => ⟨S5x16x262144x1, .i1⟩
  | .hbm, ⟨13, _⟩ => ⟨S_, .i32⟩
  | .hbm, ⟨14, _⟩ => ⟨S5x16x262144x1, .i32⟩
  | .hbm, ⟨15, _⟩ => ⟨S5x16x262144x1, .i32⟩
  | .hbm, ⟨16, _⟩ => ⟨S5x16x262144x1, .i32⟩
  | .hbm, ⟨17, _⟩ => ⟨S16x262144x2, .f32⟩
  | .hbm, ⟨18, _⟩ => ⟨S1, .i32⟩
  | .hbm, ⟨19, _⟩ => ⟨S_, .i32⟩
  | .hbm, ⟨20, _⟩ => ⟨S5x16x262144x1, .i32⟩
  | .hbm, ⟨21, _⟩ => ⟨S5x16x262144x1, .i1⟩
  | .hbm, ⟨22, _⟩ => ⟨S1x1x1x1, .i32⟩
  | .hbm, ⟨23, _⟩ => ⟨S5x16x262144x1, .i32⟩
  | .hbm, ⟨24, _⟩ => ⟨S5x16x262144x1, .i1⟩
  | .hbm, ⟨25, _⟩ => ⟨S5x16x262144x1, .i1⟩
  | .hbm, ⟨26, _⟩ => ⟨S_, .i1⟩
  | .hbm, ⟨27, _⟩ => ⟨S5x16x262144, .i1⟩
  | .hbm, ⟨28, _⟩ => ⟨S5x16x262144x2, .f32⟩
  | .hbm, ⟨29, _⟩ => ⟨S5x16x262144x2, .i1⟩
  | .hbm, ⟨30, _⟩ => ⟨S_, .f32⟩
  | .hbm, ⟨31, _⟩ => ⟨S5x16x262144x2, .f32⟩
  | .hbm, ⟨32, _⟩ => ⟨S5x16x262144x2, .f32⟩
  | .hbm, ⟨33, _⟩ => ⟨S5x16x262144x1, .f32⟩
  | .hbm, ⟨34, _⟩ => ⟨S5x16x262144, .f32⟩
  | .hbm, ⟨35, _⟩ => ⟨S5x16x262144x1, .f32⟩
  | .hbm, ⟨36, _⟩ => ⟨S5x16x262144, .f32⟩
  | .hbm, ⟨37, _⟩ => ⟨S2x1x1, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S8x32768, .f32⟩
  | .local _ .vmem, ⟨1, _⟩ => ⟨S8x32768, .f32⟩
  | .local _ .vmem, ⟨2, _⟩ => ⟨S8x32768, .f32⟩
  | .local _ .vmem, ⟨3, _⟩ => ⟨S8x32768, .f32⟩
  | .local _ .vmem, ⟨4, _⟩ => ⟨S5x8x32768, .f32⟩
  | .local _ .vmem, ⟨5, _⟩ => ⟨S5x8x32768, .f32⟩
  | .local _ .vmem, ⟨6, _⟩ => ⟨S5x8x32768, .f32⟩
  | .local _ .vmem, ⟨7, _⟩ => ⟨S5x8x32768, .f32⟩
  | .local _ .vmem, ⟨8, _⟩ => ⟨S1x1x1, .f32⟩
  | .local _ .vmem, ⟨9, _⟩ => ⟨S1x1x1, .f32⟩
  | .local _ .vmem, ⟨10, _⟩ => ⟨S1x1, .f32⟩
  | _, _ => ⟨S16x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst : Ref sig .tc := ⟨.hbm, 38, rfl⟩
abbrev main_v13 : Ref sig .tc := ⟨.hbm, 39, rfl⟩
abbrev main_cst_0 : Ref sig .tc := ⟨.hbm, 40, rfl⟩
abbrev main_v14 : Ref sig .tc := ⟨.hbm, 41, rfl⟩
abbrev main_cst_1 : Ref sig .tc := ⟨.hbm, 42, rfl⟩
abbrev main_v15 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v135 : BitVec 1 := Scalar.cmpi .eq arg1 c7_i32
  let v136 : BitVec 32 := Scalar.extui v135
  let c0_i32_71 : BitVec 32 := 0#32
  let v137 : BitVec 1 := Scalar.cmpi .ne v136 c0_i32_71
  v137

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5x8x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S5x8x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16x1x512x512_S16x262144 : S16x1x512x512.ShapeCasts S16x262144
  bcast_S16x262144_S16x262144x1_0_1 : S16x262144.BroadcastsInDim S16x262144x1 (![0, 1] : Fin 2 → Fin S16x262144x1.rank)
  concatenates_S16x262144x1_S16x262144x1_S16x262144x2_d2 : Shape.Concatenates [S16x262144x1, S16x262144x1] S16x262144x2 2
  bcast_S5x16x262144_S5x16x262144x1_0_1_2 : S5x16x262144.BroadcastsInDim S5x16x262144x1 (![0, 1, 2] : Fin 3 → Fin S5x16x262144x1.rank)
  bcast_S16x262144x2_S1x16x262144x2_1_2_3 : S16x262144x2.BroadcastsInDim S1x16x262144x2 (![1, 2, 3] : Fin 3 → Fin S1x16x262144x2.rank)
  bcast_S_S5x16x262144x1 : S_.BroadcastsInDim S5x16x262144x1 (![] : Fin 0 → Fin S5x16x262144x1.rank)
  shapeCasts_S1x16x262144x2_S16x262144x2 : S1x16x262144x2.ShapeCasts S16x262144x2
  bcast_S1_S1x1x1x1_3 : S1.BroadcastsInDim S1x1x1x1 (![3] : Fin 1 → Fin S1x1x1x1.rank)
  bcast_S1x1x1x1_S5x16x262144x1_0_1_2_3 : S1x1x1x1.BroadcastsInDim S5x16x262144x1 (![0, 1, 2, 3] : Fin 4 → Fin S5x16x262144x1.rank)
  reducesTo_S5x16x262144x1_S5x16x262144_d3 : S5x16x262144x1.ReducesTo [3] S5x16x262144
  h_S_ : 0 < S_.numel
  bcast_S5x16x262144_S5x16x262144x2_0_1_2 : S5x16x262144.BroadcastsInDim S5x16x262144x2 (![0, 1, 2] : Fin 3 → Fin S5x16x262144x2.rank)
  bcast_S_S5x16x262144x2 : S_.BroadcastsInDim S5x16x262144x2 (![] : Fin 0 → Fin S5x16x262144x2.rank)
  slices_S5x16x262144x2_S5x16x262144x1_0_0_0_0 : S5x16x262144x2.Slices ![0, 0, 0, 0] S5x16x262144x1
  shapeCasts_S5x16x262144x1_S5x16x262144 : S5x16x262144x1.ShapeCasts S5x16x262144
  slices_S5x16x262144x2_S5x16x262144x1_0_0_0_1 : S5x16x262144x2.Slices ![0, 0, 0, 1] S5x16x262144x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x32768_S8x32768_0_0 : ∀ a, (![0, 0] : Fin 2 → Nat) a + S8x32768.size a ≤ S8x32768.size a
  h_S8x32768 : 0 < S8x32768.numel
  shapeCasts_S8x32768_S8x32768 : S8x32768.ShapeCasts S8x32768
  inb_S5x8x32768_S1x8x32768_0_0_0 : ∀ a, (![0, 0, 0] : Fin 3 → Nat) a + S1x8x32768.size a ≤ S5x8x32768.size a
  h_S1x8x32768 : 0 < S1x8x32768.numel
  shapeCasts_S1x8x32768_S8x32768 : S1x8x32768.ShapeCasts S8x32768
  inb_S5x8x32768_S1x8x32768_1_0_0 : ∀ a, (![1, 0, 0] : Fin 3 → Nat) a + S1x8x32768.size a ≤ S5x8x32768.size a
  inb_S5x8x32768_S1x8x32768_2_0_0 : ∀ a, (![2, 0, 0] : Fin 3 → Nat) a + S1x8x32768.size a ≤ S5x8x32768.size a
  inb_S5x8x32768_S1x8x32768_3_0_0 : ∀ a, (![3, 0, 0] : Fin 3 → Nat) a + S1x8x32768.size a ≤ S5x8x32768.size a
  inb_S5x8x32768_S1x8x32768_4_0_0 : ∀ a, (![4, 0, 0] : Fin 3 → Nat) a + S1x8x32768.size a ≤ S5x8x32768.size a
  shapeCasts_S8x32768_S1x8x32768 : S8x32768.ShapeCasts S1x8x32768
  reduces_S1x8x32768_S1 : S1x8x32768.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  gather_S16x262144x2_S5x16x262144x1_S5x16x262144x2_3_1_0_1_1_3_112_wf : GatherDims.WF S16x262144x2 S5x16x262144x1 S5x16x262144x2 [3] [1] [0] [1] [1] 3 ![1, 1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32768.size a ≤ S16x262144.size a
  hwx0_0 : ∀ i : grid0.Coords, EltTy.bits .f32 = 32 ∨ (Rect.block (s := S16x262144) S8x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32768.size a ≤ S16x262144.size a
  hwx0_1 : ∀ i : grid0.Coords, EltTy.bits .f32 = 32 ∨ (Rect.block (s := S16x262144) S8x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5x8x32768.size a ≤ S5x16x262144.size a
  hwx0_2 : ∀ i : grid0.Coords, EltTy.bits .f32 = 32 ∨ (Rect.block (s := S5x16x262144) S5x8x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5x8x32768.size a ≤ S5x16x262144.size a
  hwx0_3 : ∀ i : grid0.Coords, EltTy.bits .f32 = 32 ∨ (Rect.block (s := S5x16x262144) S5x8x32768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

def gather_S16x262144x2_S5x16x262144x1_S5x16x262144x2_3_1_0_1_1_3_112 : GatherDims S16x262144x2 S5x16x262144x1 S5x16x262144x2 where
  offsetDims := [3]
  collapsedSliceDims := [1]
  operandBatchingDims := [0]
  startIndicesBatchingDims := [1]
  startIndexMap := [1]
  indexVectorDim := 3
  sliceSizes := ![1, 1, 2]
  wf := gather_S16x262144x2_S5x16x262144x1_S5x16x262144x2_3_1_0_1_1_3_112_wf

abbrev win0_0 : Pipeline.Window sig grid0 :=
  Pipeline.Window.ofSpec (Memref.whole main_v0) S8x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5x8x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5x8x32768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x1x512x512 : Shape := ⟨4, ![16, 1, 512, 512]⟩
abbrev S5x16x262144 : Shape := ⟨3, ![5, 16, 262144]⟩
abbrev S16x262144 : Shape := ⟨2, ![16, 262144]⟩
abbrev S1x16x262144 : Shape := ⟨3, ![1, 16, 262144]⟩
abbrev S_ : Shape := ⟨0, ![]⟩
abbrev S5x16x262144x1 : Shape := ⟨4, ![5, 16, 262144, 1]⟩
abbrev S1 : Shape := ⟨1, ![1]⟩
abbrev S1x1x1x1 : Shape := ⟨4, ![1, 1, 1, 1]⟩
abbrev S16x262144x5 : Shape := ⟨3, ![16, 262144, 5]⟩
abbrev S16x262144x1 : Shape := ⟨3, ![16, 262144, 1]⟩

abbrev nBuf : Space → Nat
  | .hbm => 93
  | .vmem => 0
  | .smem => 0
  | _ => 0

abbrev bufTy : (tb : Table) → Fin (tcTables nBuf tb) → BufTy
  | .hbm, ⟨0, _⟩ => ⟨S16x1x512x512, .f32⟩
  | .hbm, ⟨1, _⟩ => ⟨S16x1x512x512, .f32⟩
  | .hbm, ⟨2, _⟩ => ⟨S5x16x262144, .i32⟩
  | .hbm, ⟨3, _⟩ => ⟨S16x262144, .f32⟩
  | .hbm, ⟨4, _⟩ => ⟨S1x16x262144, .f32⟩
  | .hbm, ⟨5, _⟩ => ⟨S_, .i32⟩
  | .hbm, ⟨6, _⟩ => ⟨S5x16x262144, .i32⟩
  | .hbm, ⟨7, _⟩ => ⟨S5x16x262144, .i1⟩
  | .hbm, ⟨8, _⟩ => ⟨S_, .i32⟩
  | .hbm, ⟨9, _⟩ => ⟨S5x16x262144, .i32⟩
  | .hbm, ⟨10, _⟩ => ⟨S5x16x262144, .i32⟩
  | .hbm, ⟨11, _⟩ => ⟨S5x16x262144, .i32⟩
  | .hbm, ⟨12, _⟩ => ⟨S5x16x262144x1, .i32⟩
  | .hbm, ⟨13, _⟩ => ⟨S16x262144, .f32⟩
  | .hbm, ⟨14, _⟩ => ⟨S1, .i32⟩
  | .hbm, ⟨15, _⟩ => ⟨S_, .i32⟩
  | .hbm, ⟨16, _⟩ => ⟨S5x16x262144x1, .i32⟩
  | .hbm, ⟨17, _⟩ => ⟨S5x16x262144x1, .i1⟩
  | .hbm, ⟨18, _⟩ => ⟨S1x1x1x1, .i32⟩
  | .hbm, ⟨19, _⟩ => ⟨S5x16x262144x1, .i32⟩
  | .hbm, ⟨20, _⟩ => ⟨S5x16x262144x1, .i1⟩
  | .hbm, ⟨21, _⟩ => ⟨S5x16x262144x1, .i1⟩
  | .hbm, ⟨22, _⟩ => ⟨S_, .i1⟩
  | .hbm, ⟨23, _⟩ => ⟨S5x16x262144, .i1⟩
  | .hbm, ⟨24, _⟩ => ⟨S5x16x262144, .f32⟩
  | .hbm, ⟨25, _⟩ => ⟨S_, .f32⟩
  | .hbm, ⟨26, _⟩ => ⟨S5x16x262144, .f32⟩
  | .hbm, ⟨27, _⟩ => ⟨S5x16x262144, .f32⟩
  | .hbm, ⟨28, _⟩ => ⟨S1x16x262144, .f32⟩
  | .hbm, ⟨29, _⟩ => ⟨S5x16x262144, .f32⟩
  | .hbm, ⟨30, _⟩ => ⟨S5x16x262144, .f32⟩
  | .hbm, ⟨31, _⟩ => ⟨S16x262144x5, .f32⟩
  | .hbm, ⟨32, _⟩ => ⟨S16x262144x5, .f32⟩
  | .hbm, ⟨33, _⟩ => ⟨S_, .f32⟩
  | .hbm, ⟨34, _⟩ => ⟨S16x262144, .f32⟩
  | .hbm, ⟨35, _⟩ => ⟨S16x262144x1, .f32⟩
  | .hbm, ⟨36, _⟩ => ⟨S16x262144x1, .f32⟩
  | .hbm, ⟨37, _⟩ => ⟨S_, .f32⟩
  | .hbm, ⟨38, _⟩ => ⟨S16x262144x1, .f32⟩
  | .hbm, ⟨39, _⟩ => ⟨S16x262144x1, .i1⟩
  | .hbm, ⟨40, _⟩ => ⟨S_, .f32⟩
  | .hbm, ⟨41, _⟩ => ⟨S16x262144x1, .f32⟩
  | .hbm, ⟨42, _⟩ => ⟨S16x262144x1, .f32⟩
  | .hbm, ⟨43, _⟩ => ⟨S16x262144x5, .f32⟩
  | .hbm, ⟨44, _⟩ => ⟨S16x262144x5, .f32⟩
  | .hbm, ⟨45, _⟩ => ⟨S16x262144, .f32⟩
  | .hbm, ⟨46, _⟩ => ⟨S1x16x262144, .f32⟩
  | .hbm, ⟨47, _⟩ => ⟨S_, .i32⟩
  | .hbm, ⟨48, _⟩ => ⟨S5x16x262144, .i32⟩
  | .hbm, ⟨49, _⟩ => ⟨S5x16x262144, .i1⟩
  | .hbm, ⟨50, _⟩ => ⟨S_, .i32⟩
  | .hbm, ⟨51, _⟩ => ⟨S5x16x262144, .i32⟩
  | .hbm, ⟨52, _⟩ => ⟨S5x16x262144, .i32⟩
  | .hbm, ⟨53, _⟩ => ⟨S5x16x262144, .i32⟩
  | .hbm, ⟨54, _⟩ => ⟨S5x16x262144x1, .i32⟩
  | .hbm, ⟨55, _⟩ => ⟨S16x262144, .f32⟩
  | .hbm, ⟨56, _⟩ => ⟨S1, .i32⟩
  | .hbm, ⟨57, _⟩ => ⟨S_, .i32⟩
  | .hbm, ⟨58, _⟩ => ⟨S5x16x262144x1, .i32⟩
  | .hbm, ⟨59, _⟩ => ⟨S5x16x262144x1, .i1⟩
  | .hbm, ⟨60, _⟩ => ⟨S1x1x1x1, .i32⟩
  | .hbm, ⟨61, _⟩ => ⟨S5x16x262144x1, .i32⟩
  | .hbm, ⟨62, _⟩ => ⟨S5x16x262144x1, .i1⟩
  | .hbm, ⟨63, _⟩ => ⟨S5x16x262144x1, .i1⟩
  | .hbm, ⟨64, _⟩ => ⟨S_, .i1⟩
  | .hbm, ⟨65, _⟩ => ⟨S5x16x262144, .i1⟩
  | .hbm, ⟨66, _⟩ => ⟨S5x16x262144, .f32⟩
  | .hbm, ⟨67, _⟩ => ⟨S_, .f32⟩
  | .hbm, ⟨68, _⟩ => ⟨S5x16x262144, .f32⟩
  | .hbm, ⟨69, _⟩ => ⟨S5x16x262144, .f32⟩
  | .hbm, ⟨70, _⟩ => ⟨S1x16x262144, .f32⟩
  | .hbm, ⟨71, _⟩ => ⟨S5x16x262144, .f32⟩
  | .hbm, ⟨72, _⟩ => ⟨S5x16x262144, .f32⟩
  | .hbm, ⟨73, _⟩ => ⟨S16x262144x5, .f32⟩
  | .hbm, ⟨74, _⟩ => ⟨S16x262144x5, .f32⟩
  | .hbm, ⟨75, _⟩ => ⟨S_, .f32⟩
  | .hbm, ⟨76, _⟩ => ⟨S16x262144, .f32⟩
  | .hbm, ⟨77, _⟩ => ⟨S16x262144x1, .f32⟩
  | .hbm, ⟨78, _⟩ => ⟨S16x262144x1, .f32⟩
  | .hbm, ⟨79, _⟩ => ⟨S_, .f32⟩
  | .hbm, ⟨80, _⟩ => ⟨S16x262144x1, .f32⟩
  | .hbm, ⟨81, _⟩ => ⟨S16x262144x1, .i1⟩
  | .hbm, ⟨82, _⟩ => ⟨S_, .f32⟩
  | .hbm, ⟨83, _⟩ => ⟨S16x262144x1, .f32⟩
  | .hbm, ⟨84, _⟩ => ⟨S16x262144x1, .f32⟩
  | .hbm, ⟨85, _⟩ => ⟨S16x262144x5, .f32⟩
  | .hbm, ⟨86, _⟩ => ⟨S16x262144x5, .f32⟩
  | .hbm, ⟨87, _⟩ => ⟨S16x262144x5, .f32⟩
  | .hbm, ⟨88, _⟩ => ⟨S16x262144x5, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_c_1 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_c_3 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_call1_v0 : Ref sig .tc := ⟨.hbm, 32, rfl⟩
abbrev main_call1_cst : Ref sig .tc := ⟨.hbm, 33, rfl⟩
abbrev main_call1_v1 : Ref sig .tc := ⟨.hbm, 34, rfl⟩
abbrev main_call1_v2 : Ref sig .tc := ⟨.hbm, 35, rfl⟩
abbrev main_v7 : Ref sig .tc := ⟨.hbm, 36, rfl⟩
abbrev main_cst : Ref sig .tc := ⟨.hbm, 37, rfl⟩
abbrev main_v8 : Ref sig .tc := ⟨.hbm, 38, rfl⟩
abbrev main_v9 : Ref sig .tc := ⟨.hbm, 39, rfl⟩
abbrev main_cst_0 : Ref sig .tc := ⟨.hbm, 40, rfl⟩
abbrev main_call2_v0 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_call3_c : Ref sig .tc := ⟨.hbm, 47, rfl⟩
abbrev main_call3_v0 : Ref sig .tc := ⟨.hbm, 48, rfl⟩
abbrev main_call3_v1 : Ref sig .tc := ⟨.hbm, 49, rfl⟩
abbrev main_call3_c_0 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_v5 : Ref sig .tc := ⟨.hbm, 54, rfl⟩
abbrev main_call3_v6 : Ref sig .tc := ⟨.hbm, 55, rfl⟩
abbrev main_call3_c_1 : Ref sig .tc := ⟨.hbm, 56, rfl⟩
abbrev main_call3_c_2 : Ref sig .tc := ⟨.hbm, 57, rfl⟩
abbrev main_call3_v7 : Ref sig .tc := ⟨.hbm, 58, rfl⟩
abbrev main_call3_v8 : Ref sig .tc := ⟨.hbm, 59, rfl⟩
abbrev main_call3_v9 : Ref sig .tc := ⟨.hbm, 60, rfl⟩
abbrev main_call3_v10 : Ref sig .tc := ⟨.hbm, 61, rfl⟩
abbrev main_call3_v11 : Ref sig .tc := ⟨.hbm, 62, rfl⟩
abbrev main_call3_v12 : Ref sig .tc := ⟨.hbm, 63, rfl⟩
abbrev main_call3_c_3 : Ref sig .tc := ⟨.hbm, 64, rfl⟩
abbrev main_call3_v13 : Ref sig .tc := ⟨.hbm, 65, rfl⟩
abbrev main_call3_v14 : Ref sig .tc := ⟨.hbm, 66, rfl⟩
abbrev main_call3_cst : Ref sig .tc := ⟨.hbm, 67, rfl⟩
abbrev main_call3_v15 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_call4_v0 : Ref sig .tc := ⟨.hbm, 74, rfl⟩
abbrev main_call4_cst : Ref sig .tc := ⟨.hbm, 75, rfl⟩
abbrev main_call4_v1 : Ref sig .tc := ⟨.hbm, 76, rfl⟩
abbrev main_call4_v2 : Ref sig .tc := ⟨.hbm, 77, rfl⟩
abbrev main_v20 : Ref sig .tc := ⟨.hbm, 78, rfl⟩
abbrev main_cst_1 : Ref sig .tc := ⟨.hbm, 79, rfl⟩
abbrev main_v21 : Ref sig .tc := ⟨.hbm, 80, rfl⟩
abbrev main_v22 : Ref sig .tc := ⟨.hbm, 81, rfl⟩
abbrev main_cst_2 : Ref sig .tc := ⟨.hbm, 82, rfl⟩
abbrev main_call5_v0 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_cst_3 : Ref sig .tc := ⟨.hbm, 89, rfl⟩
abbrev main_v28 : Ref sig .tc := ⟨.hbm, 90, rfl⟩
abbrev main_cst_4 : Ref sig .tc := ⟨.hbm, 91, rfl⟩
abbrev main_v29 : Ref sig .tc := ⟨.hbm, 92, rfl⟩

abbrev nD : Nat := 1
abbrev τ : Topo := Topo.v7x

variable {F : FTy → Type} [FloatOps F]

class Facts₀ : Prop where
  shapeCasts_S16x1x512x512_S16x262144 : S16x1x512x512.ShapeCasts S16x262144
  bcast_S16x262144_S1x16x262144_1_2 : S16x262144.BroadcastsInDim S1x16x262144 (![1, 2] : Fin 2 → Fin S1x16x262144.rank)
  bcast_S_S5x16x262144 : S_.BroadcastsInDim S5x16x262144 (![] : Fin 0 → Fin S5x16x262144.rank)
  shapeCasts_S5x16x262144_S5x16x262144x1 : S5x16x262144.ShapeCasts S5x16x262144x1
  shapeCasts_S1x16x262144_S16x262144 : S1x16x262144.ShapeCasts S16x262144
  bcast_S_S5x16x262144x1 : S_.BroadcastsInDim S5x16x262144x1 (![] : Fin 0 → Fin S5x16x262144x1.rank)
  bcast_S1_S1x1x1x1_3 : S1.BroadcastsInDim S1x1x1x1 (![3] : Fin 1 → Fin S1x1x1x1.rank)
  bcast_S1x1x1x1_S5x16x262144x1_0_1_2_3 : S1x1x1x1.BroadcastsInDim S5x16x262144x1 (![0, 1, 2, 3] : Fin 4 → Fin S5x16x262144x1.rank)
  reducesTo_S5x16x262144x1_S5x16x262144_d3 : S5x16x262144x1.ReducesTo [3] S5x16x262144
  h_S_ : 0 < S_.numel
  bcast_S1x16x262144_S5x16x262144_0_1_2 : S1x16x262144.BroadcastsInDim S5x16x262144 (![0, 1, 2] : Fin 3 → Fin S5x16x262144.rank)
  transposes_S5x16x262144_S16x262144x5_1_2_0 : S5x16x262144.Transposes [1, 2, 0] S16x262144x5
  reducesTo_S16x262144x5_S16x262144_d2 : S16x262144x5.ReducesTo [2] S16x262144
  bcast_S16x262144_S16x262144x1_0_1 : S16x262144.BroadcastsInDim S16x262144x1 (![0, 1] : Fin 2 → Fin S16x262144x1.rank)
  bcast_S_S16x262144x1 : S_.BroadcastsInDim S16x262144x1 (![] : Fin 0 → Fin S16x262144x1.rank)
  bcast_S16x262144x1_S16x262144x5_0_1_2 : S16x262144x1.BroadcastsInDim S16x262144x5 (![0, 1, 2] : Fin 3 → Fin S16x262144x5.rank)
  reducesTo_S16x262144x5_S_d0_1_2 : S16x262144x5.ReducesTo [0, 1, 2] S_
  gather_S16x262144_S5x16x262144x1_S5x16x262144_n_1_0_1_1_3_11_wf : GatherDims.WF S16x262144 S5x16x262144x1 S5x16x262144 [] [1] [0] [1] [1] 3 ![1, 1]

variable [Facts₀]

def gather_S16x262144_S5x16x262144x1_S5x16x262144_n_1_0_1_1_3_11 : GatherDims S16x262144 S5x16x262144x1 S5x16x262144 where
  offsetDims := []
  collapsedSliceDims := [1]
  operandBatchingDims := [0]
  startIndicesBatchingDims := [1]
  startIndexMap := [1]
  indexVectorDim := 3
  sliceSizes := ![1, 1]
  wf := gather_S16x262144_S5x16x262144x1_S5x16x262144_n_1_0_1_1_3_11_wf

class Facts : Prop extends Facts₀ where

variable [Facts]
-- ==== Proof.LibTypedRef.lean ====
/-
  Typed references of a host program's called functions: a round trip through the buffer is the identity.

  A called function's operations read and write their buffers through typed references
  (`StableHlo.TRef`): a value of the tensor's type is sent into the buffer along the reference's type equation
  (`toBuf`) and read back along it (`ofBuf`). When a run of such operations is read back as a composed term,
  every intermediate value appears as `x.ofBuf (x.toBuf v)`. That is `v`: `simp only [TRef.ofBuf_toBuf]` removes
  every such pair, for any program, before the composed term is compared with a cast-free one.
-/
import Idealize.ShloMosaic.Lib.StableHlo

namespace Idealize.ShloMosaic.StableHlo.TRef

/-- A value sent into a typed reference's buffer and read back is the value. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

/-- The other way round: contents read out of the buffer at the value's type and sent back are the contents. -/
theorem toBuf_ofBuf {sig : RefSig} {Val : EltTy → Type} {T : BufTy} (x : TRef sig T) (v : x.ref.ty.Contents Val) :
    x.toBuf (x.ofBuf v) = v := by
  obtain ⟨r, h, h2, h3⟩ := x
  subst h
  rfl

end Idealize.ShloMosaic.StableHlo.TRef
-- ==== Proof.RefRun.lean ====
/-
  The reference program's run, read back as one function of its three arguments.

  The reference flattens each image batch to rows of 262144 pixels, gathers every row through the five index
  rows of `perms` (an index below zero is shifted up by the row length; an index outside the row reads the
  fill word instead), subtracts the gathered copy from the row, and so has, for each pixel, a vector of five
  differences. Each such vector is divided by its Euclidean length (by one when the length is zero). The result
  is the sum over all pixels and all five components of the absolute difference between the prediction's and
  the target's unit vectors, divided by the number of summands.

  The stages below name these steps once, for either image batch; `loss` composes them; `run` says every
  weakly fair execution of the program ends with its result buffer at `loss` of the arguments and the
  arguments unchanged.
-/
import proofs.«138854_j16561393893906_2_alg».proof.Proof.Gen.ReferenceIdeal
import proofs.«138854_j16561393893906_2_alg».proof.Proof.LibTypedRef
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- A batch of images as rows of pixels. -/
def rows (x : (⟨S16x1x512x512, .f32⟩ : BufTy).Contents (Elt F)) : (⟨S16x262144, .f32⟩ : BufTy).Contents (Elt F) :=
  shapeCast _ x shapeCasts_S16x1x512x512_S16x262144

/-- The rows under a leading unit axis. -/
def lead (y : (⟨S16x262144, .f32⟩ : BufTy).Contents (Elt F)) : (⟨S1x16x262144, .f32⟩ : BufTy).Contents (Elt F) :=
  broadcastInDim S1x16x262144 ![1, 2] bcast_S16x262144_S1x16x262144_1_2 y

/-- The indices with the negative ones shifted up by the row length, under a trailing unit axis. -/
def starts (p : (⟨S5x16x262144, .i32⟩ : BufTy).Contents (Elt F)) : (⟨S5x16x262144x1, .i32⟩ : BufTy).Contents (Elt F) :=
  shapeCast _ (select (cmpi .slt p (broadcastInDim S5x16x262144 ![] bcast_S_S5x16x262144 (constantI S_ 32 0#32)))
    (addi p (broadcastInDim S5x16x262144 ![] bcast_S_S5x16x262144 (constantI S_ 32 262144#32))) p)
    shapeCasts_S5x16x262144_S5x16x262144x1

/-- Whether a shifted index lies inside the row. -/
def inRow (p : (⟨S5x16x262144, .i32⟩ : BufTy).Contents (Elt F)) : (⟨S5x16x262144, .i1⟩ : BufTy).Contents (Elt F) :=
  Host.reduce IntOp.andi
    (andi (cmpi .sge (starts p) (broadcastInDim S5x16x262144x1 ![] bcast_S_S5x16x262144x1 (constantI S_ 32 0#32)))
      (cmpi .sle (starts p) (broadcastInDim S5x16x262144x1 ![0, 1, 2, 3] bcast_S1x1x1x1_S5x16x262144x1_0_1_2_3
        (broadcastInDim S1x1x1x1 ![3] bcast_S1_S1x1x1x1_3 (constantI S1 32 262143#32)))))
    (constantI S_ 1 1#1) reducesTo_S5x16x262144x1_S5x16x262144_d3 h_S_

/-- Each row read through the five index rows: the gathered pixel where the index is inside the row, the fill
    word elsewhere. -/
def taken (y : (⟨S1x16x262144, .f32⟩ : BufTy).Contents (Elt F)) (p : (⟨S5x16x262144, .i32⟩ : BufTy).Contents (Elt F)) : (⟨S5x16x262144, .f32⟩ : BufTy).Contents (Elt F) :=
  select (inRow p)
    (Host.gather gather_S16x262144_S5x16x262144x1_S5x16x262144_n_1_0_1_1_3_11
      (shapeCast _ y shapeCasts_S1x16x262144_S16x262144) (starts p))
    (broadcastInDim S5x16x262144 ![] bcast_S_S5x16x262144 (constant S_ .f32 0x7FC00000#32))

/-- The five differences of each pixel, the component axis last. -/
def diffs (x : (⟨S16x1x512x512, .f32⟩ : BufTy).Contents (Elt F)) (p : (⟨S5x16x262144, .i32⟩ : BufTy).Contents (Elt F)) : (⟨S16x262144x5, .f32⟩ : BufTy).Contents (Elt F) :=
  transpose S16x262144x5 [1, 2, 0]
    (subf (broadcastInDim S5x16x262144 ![0, 1, 2] bcast_S1x16x262144_S5x16x262144_0_1_2 (lead (rows x)))
      (taken (lead (rows x)) p)) transposes_S5x16x262144_S16x262144x5_1_2_0

/-- The Euclidean length of each pixel's vector of differences. -/
def len (d : (⟨S16x262144x5, .f32⟩ : BufTy).Contents (Elt F)) : (⟨S16x262144x1, .f32⟩ : BufTy).Contents (Elt F) :=
  Host.sqrt (broadcastInDim S16x262144x1 ![0, 1] bcast_S16x262144_S16x262144x1_0_1
    (Host.reduceAdd (mulf d d) (constant S_ .f32 0x00000000#32) reducesTo_S16x262144x5_S16x262144_d2 h_S_))

/-- That length, with one in place of zero. -/
def guarded (d : (⟨S16x262144x5, .f32⟩ : BufTy).Contents (Elt F)) : (⟨S16x262144x1, .f32⟩ : BufTy).Contents (Elt F) :=
  select (cmpf .oeq (len d) (broadcastInDim S16x262144x1 ![] bcast_S_S16x262144x1 (constant S_ .f32 0x00000000#32)))
    (broadcastInDim S16x262144x1 ![] bcast_S_S16x262144x1 (constant S_ .f32 0x3F800000#32)) (len d)

/-- Each pixel's vector of differences over its guarded length. -/
def unitVec (d : (⟨S16x262144x5, .f32⟩ : BufTy).Contents (Elt F)) : (⟨S16x262144x5, .f32⟩ : BufTy).Contents (Elt F) :=
  Host.divf d (broadcastInDim S16x262144x5 ![0, 1, 2] bcast_S16x262144x1_S16x262144x5_0_1_2 (guarded d))

/-- The componentwise absolute difference of the two batches' unit vectors. -/
def gaps (x0 x1 : (⟨S16x1x512x512, .f32⟩ : BufTy).Contents (Elt F)) (p : (⟨S5x16x262144, .i32⟩ : BufTy).Contents (Elt F)) : (⟨S16x262144x5, .f32⟩ : BufTy).Contents (Elt F) :=
  Host.absf (subf (unitVec (diffs x0 p)) (unitVec (diffs x1 p)))

/-- The mean of all of them: their sum over the count of summands, 16 · 262144 · 5. -/
def loss (x0 x1 : (⟨S16x1x512x512, .f32⟩ : BufTy).Contents (Elt F)) (p : (⟨S5x16x262144, .i32⟩ : BufTy).Contents (Elt F)) : (⟨S_, .f32⟩ : BufTy).Contents (Elt F) :=
  Host.divf (Host.reduceAdd (gaps x0 x1 p) (constant S_ .f32 0x00000000#32) reducesTo_S16x262144x5_S_d0_1_2 h_S_)
    (constant S_ .f32 0x4BA00000#32)

/-! ## The program as a list of its operations -/

/-- The program's host operations in order, a called function's lines standing where it is called. -/
abbrev ops : List (HloOp τ sig (Elt F)) :=
  [ reshape main_arg0 main_v0 rfl shapeCasts_S16x1x512x512_S16x262144,
    unary main_v0 main_v1 (broadcastInDim S1x16x262144 ![1, 2] bcast_S16x262144_S1x16x262144_1_2 : ((⟨S16x262144, .f32⟩ : BufTy).Contents (Elt F) → (⟨S1x16x262144, .f32⟩ : BufTy).Contents (Elt F))),
    TRef.nullary main_call0.c (constantI S_ 32 0#32),
    TRef.unary main_call0.c main_call0.v0 (broadcastInDim S5x16x262144 ![] bcast_S_S5x16x262144),
    TRef.binary (TRef.of (T := ⟨S5x16x262144, .i32⟩) main_arg2) main_call0.v0 main_call0.v1 (cmpi .slt),
    TRef.nullary main_call0.c_0 (constantI S_ 32 262144#32),
    TRef.unary main_call0.c_0 main_call0.v2 (broadcastInDim S5x16x262144 ![] bcast_S_S5x16x262144),
    TRef.binary (TRef.of (T := ⟨S5x16x262144, .i32⟩) main_arg2) main_call0.v2 main_call0.v3 addi,
    TRef.ternary main_call0.v1 main_call0.v3 (TRef.of (T := ⟨S5x16x262144, .i32⟩) main_arg2) main_call0.v4 select,
    TRef.reshape main_call0.v4 main_call0.v5 rfl shapeCasts_S5x16x262144_S5x16x262144x1,
    TRef.reshape (TRef.of (T := ⟨S1x16x262144, .f32⟩) main_v1) main_call0.v6 rfl shapeCasts_S1x16x262144_S16x262144,
    TRef.nullary main_call0.c_1 (constantI S1 32 262143#32),
    TRef.nullary main_call0.c_2 (constantI S_ 32 0#32),
    TRef.unary main_call0.c_2 main_call0.v7 (broadcastInDim S5x16x262144x1 ![] bcast_S_S5x16x262144x1),
    TRef.binary main_call0.v5 main_call0.v7 main_call0.v8 (cmpi .sge),
    TRef.unary main_call0.c_1 main_call0.v9 (broadcastInDim S1x1x1x1 ![3] bcast_S1_S1x1x1x1_3),
    TRef.unary main_call0.v9 main_call0.v10 (broadcastInDim S5x16x262144x1 ![0, 1, 2, 3] bcast_S1x1x1x1_S5x16x262144x1_0_1_2_3),
    TRef.binary main_call0.v5 main_call0.v10 main_call0.v11 (cmpi .sle),
    TRef.binary main_call0.v8 main_call0.v11 main_call0.v12 andi,
    TRef.nullary main_call0.c_3 (constantI S_ 1 1#1),
    TRef.binary main_call0.v12 main_call0.c_3 main_call0.v13 (fun x v => Host.reduce IntOp.andi x v reducesTo_S5x16x262144x1_S5x16x262144_d3 h_S_),
    TRef.binary main_call0.v6 main_call0.v5 main_call0.v14 (fun x i => Host.gather gather_S16x262144_S5x16x262144x1_S5x16x262144_n_1_0_1_1_3_11 x i),
    TRef.nullary main_call0.cst (constant S_ .f32 0x7FC00000#32),
    TRef.unary main_call0.cst main_call0.v15 (broadcastInDim S5x16x262144 ![] bcast_S_S5x16x262144),
    TRef.ternary main_call0.v13 main_call0.v14 main_call0.v15 main_call0.v16 select,
    unary main_v0 main_v3 (broadcastInDim S1x16x262144 ![1, 2] bcast_S16x262144_S1x16x262144_1_2 : ((⟨S16x262144, .f32⟩ : BufTy).Contents (Elt F) → (⟨S1x16x262144, .f32⟩ : BufTy).Contents (Elt F))),
    unary main_v3 main_v4 (broadcastInDim S5x16x262144 ![0, 1, 2] bcast_S1x16x262144_S5x16x262144_0_1_2 : ((⟨S1x16x262144, .f32⟩ : BufTy).Contents (Elt F) → (⟨S5x16x262144, .f32⟩ : BufTy).Contents (Elt F))),
    binary main_v4 main_v2 main_v5 (subf : ((⟨S5x16x262144, .f32⟩ : BufTy).Contents (Elt F) → (⟨S5x16x262144, .f32⟩ : BufTy).Contents (Elt F) → (⟨S5x16x262144, .f32⟩ : BufTy).Contents (Elt F))),
    unary main_v5 main_v6 ((transpose S16x262144x5 [1, 2, 0] · transposes_S5x16x262144_S16x262144x5_1_2_0) : ((⟨S5x16x262144, .f32⟩ : BufTy).Contents (Elt F) → (⟨S16x262144x5, .f32⟩ : BufTy).Contents (Elt F))),
    TRef.binary (TRef.of (T := ⟨S16x262144x5, .f32⟩) main_v6) (TRef.of (T := ⟨S16x262144x5, .f32⟩) main_v6) main_call1.v0 mulf,
    TRef.nullary main_call1.cst (constant S_ .f32 0x00000000#32),
    TRef.binary main_call1.v0 main_call1.cst main_call1.v1 (fun x v => Host.reduceAdd x v reducesTo_S16x262144x5_S16x262144_d2 h_S_),
    TRef.unary main_call1.v1 main_call1.v2 (broadcastInDim S16x262144x1 ![0, 1] bcast_S16x262144_S16x262144x1_0_1),
    TRef.unary main_call1.v2 main_call1.v3 Host.sqrt,
    nullary main_cst (constant S_ .f32 0x00000000#32),
    unary main_cst main_v8 (broadcastInDim S16x262144x1 ![] bcast_S_S16x262144x1 : ((⟨S_, .f32⟩ : BufTy).Contents (Elt F) → (⟨S16x262144x1, .f32⟩ : BufTy).Contents (Elt F))),
    binary main_v7 main_v8 main_v9 (cmpf .oeq : ((⟨S16x262144x1, .f32⟩ : BufTy).Contents (Elt F) → (⟨S16x262144x1, .f32⟩ : BufTy).Contents (Elt F) → (⟨S16x262144x1, .i1⟩ : BufTy).Contents (Elt F))),
    nullary main_cst_0 (constant S_ .f32 0x3F800000#32),
    TRef.unary (TRef.of (T := ⟨S_, .f32⟩) main_cst_0) main_call2.v0 (broadcastInDim S16x262144x1 ![] bcast_S_S16x262144x1),
    TRef.ternary (TRef.of (T := ⟨S16x262144x1, .i1⟩) main_v9) main_call2.v0 (TRef.of (T := ⟨S16x262144x1, .f32⟩) main_v7) main_call2.v1 select,
    unary main_v10 main_v11 (broadcastInDim S16x262144x5 ![0, 1, 2] bcast_S16x262144x1_S16x262144x5_0_1_2 : ((⟨S16x262144x1, .f32⟩ : BufTy).Contents (Elt F) → (⟨S16x262144x5, .f32⟩ : BufTy).Contents (Elt F))),
    binary main_v6 main_v11 main_v12 (Host.divf : ((⟨S16x262144x5, .f32⟩ : BufTy).Contents (Elt F) → (⟨S16x262144x5, .f32⟩ : BufTy).Contents (Elt F) → (⟨S16x262144x5, .f32⟩ : BufTy).Contents (Elt F))),
    reshape main_arg1 main_v13 rfl shapeCasts_S16x1x512x512_S16x262144,
    unary main_v13 main_v14 (broadcastInDim S1x16x262144 ![1, 2] bcast_S16x262144_S1x16x262144_1_2 : ((⟨S16x262144, .f32⟩ : BufTy).Contents (Elt F) → (⟨S1x16x262144, .f32⟩ : BufTy).Contents (Elt F))),
    TRef.nullary main_call3.c (constantI S_ 32 0#32),
    TRef.unary main_call3.c main_call3.v0 (broadcastInDim S5x16x262144 ![] bcast_S_S5x16x262144),
    TRef.binary (TRef.of (T := ⟨S5x16x262144, .i32⟩) main_arg2) main_call3.v0 main_call3.v1 (cmpi .slt),
    TRef.nullary main_call3.c_0 (constantI S_ 32 262144#32),
    TRef.unary main_call3.c_0 main_call3.v2 (broadcastInDim S5x16x262144 ![] bcast_S_S5x16x262144),
    TRef.binary (TRef.of (T := ⟨S5x16x262144, .i32⟩) main_arg2) main_call3.v2 main_call3.v3 addi,
    TRef.ternary main_call3.v1 main_call3.v3 (TRef.of (T := ⟨S5x16x262144, .i32⟩) main_arg2) main_call3.v4 select,
    TRef.reshape main_call3.v4 main_call3.v5 rfl shapeCasts_S5x16x262144_S5x16x262144x1,
    TRef.reshape (TRef.of (T := ⟨S1x16x262144, .f32⟩) main_v14) main_call3.v6 rfl shapeCasts_S1x16x262144_S16x262144,
    TRef.nullary main_call3.c_1 (constantI S1 32 262143#32),
    TRef.nullary main_call3.c_2 (constantI S_ 32 0#32),
    TRef.unary main_call3.c_2 main_call3.v7 (broadcastInDim S5x16x262144x1 ![] bcast_S_S5x16x262144x1),
    TRef.binary main_call3.v5 main_call3.v7 main_call3.v8 (cmpi .sge),
    TRef.unary main_call3.c_1 main_call3.v9 (broadcastInDim S1x1x1x1 ![3] bcast_S1_S1x1x1x1_3),
    TRef.unary main_call3.v9 main_call3.v10 (broadcastInDim S5x16x262144x1 ![0, 1, 2, 3] bcast_S1x1x1x1_S5x16x262144x1_0_1_2_3),
    TRef.binary main_call3.v5 main_call3.v10 main_call3.v11 (cmpi .sle),
    TRef.binary main_call3.v8 main_call3.v11 main_call3.v12 andi,
    TRef.nullary main_call3.c_3 (constantI S_ 1 1#1),
    TRef.binary main_call3.v12 main_call3.c_3 main_call3.v13 (fun x v => Host.reduce IntOp.andi x v reducesTo_S5x16x262144x1_S5x16x262144_d3 h_S_),
    TRef.binary main_call3.v6 main_call3.v5 main_call3.v14 (fun x i => Host.gather gather_S16x262144_S5x16x262144x1_S5x16x262144_n_1_0_1_1_3_11 x i),
    TRef.nullary main_call3.cst (constant S_ .f32 0x7FC00000#32),
    TRef.unary main_call3.cst main_call3.v15 (broadcastInDim S5x16x262144 ![] bcast_S_S5x16x262144),
    TRef.ternary main_call3.v13 main_call3.v14 main_call3.v15 main_call3.v16 select,
    unary main_v13 main_v16 (broadcastInDim S1x16x262144 ![1, 2] bcast_S16x262144_S1x16x262144_1_2 : ((⟨S16x262144, .f32⟩ : BufTy).Contents (Elt F) → (⟨S1x16x262144, .f32⟩ : BufTy).Contents (Elt F))),
    unary main_v16 main_v17 (broadcastInDim S5x16x262144 ![0, 1, 2] bcast_S1x16x262144_S5x16x262144_0_1_2 : ((⟨S1x16x262144, .f32⟩ : BufTy).Contents (Elt F) → (⟨S5x16x262144, .f32⟩ : BufTy).Contents (Elt F))),
    binary main_v17 main_v15 main_v18 (subf : ((⟨S5x16x262144, .f32⟩ : BufTy).Contents (Elt F) → (⟨S5x16x262144, .f32⟩ : BufTy).Contents (Elt F) → (⟨S5x16x262144, .f32⟩ : BufTy).Contents (Elt F))),
    unary main_v18 main_v19 ((transpose S16x262144x5 [1, 2, 0] · transposes_S5x16x262144_S16x262144x5_1_2_0) : ((⟨S5x16x262144, .f32⟩ : BufTy).Contents (Elt F) → (⟨S16x262144x5, .f32⟩ : BufTy).Contents (Elt F))),
    TRef.binary (TRef.of (T := ⟨S16x262144x5, .f32⟩) main_v19) (TRef.of (T := ⟨S16x262144x5, .f32⟩) main_v19) main_call4.v0 mulf,
    TRef.nullary main_call4.cst (constant S_ .f32 0x00000000#32),
    TRef.binary main_call4.v0 main_call4.cst main_call4.v1 (fun x v => Host.reduceAdd x v reducesTo_S16x262144x5_S16x262144_d2 h_S_),
    TRef.unary main_call4.v1 main_call4.v2 (broadcastInDim S16x262144x1 ![0, 1] bcast_S16x262144_S16x262144x1_0_1),
    TRef.unary main_call4.v2 main_call4.v3 Host.sqrt,
    nullary main_cst_1 (constant S_ .f32 0x00000000#32),
    unary main_cst_1 main_v21 (broadcastInDim S16x262144x1 ![] bcast_S_S16x262144x1 : ((⟨S_, .f32⟩ : BufTy).Contents (Elt F) → (⟨S16x262144x1, .f32⟩ : BufTy).Contents (Elt F))),
    binary main_v20 main_v21 main_v22 (cmpf .oeq : ((⟨S16x262144x1, .f32⟩ : BufTy).Contents (Elt F) → (⟨S16x262144x1, .f32⟩ : BufTy).Contents (Elt F) → (⟨S16x262144x1, .i1⟩ : BufTy).Contents (Elt F))),
    nullary main_cst_2 (constant S_ .f32 0x3F800000#32),
    TRef.unary (TRef.of (T := ⟨S_, .f32⟩) main_cst_2) main_call5.v0 (broadcastInDim S16x262144x1 ![] bcast_S_S16x262144x1),
    TRef.ternary (TRef.of (T := ⟨S16x262144x1, .i1⟩) main_v22) main_call5.v0 (TRef.of (T := ⟨S16x262144x1, .f32⟩) main_v20) main_call5.v1 select,
    unary main_v23 main_v24 (broadcastInDim S16x262144x5 ![0, 1, 2] bcast_S16x262144x1_S16x262144x5_0_1_2 : ((⟨S16x262144x1, .f32⟩ : BufTy).Contents (Elt F) → (⟨S16x262144x5, .f32⟩ : BufTy).Contents (Elt F))),
    binary main_v19 main_v24 main_v25 (Host.divf : ((⟨S16x262144x5, .f32⟩ : BufTy).Contents (Elt F) → (⟨S16x262144x5, .f32⟩ : BufTy).Contents (Elt F) → (⟨S16x262144x5, .f32⟩ : BufTy).Contents (Elt F))),
    binary main_v12 main_v25 main_v26 (subf : ((⟨S16x262144x5, .f32⟩ : BufTy).Contents (Elt F) → (⟨S16x262144x5, .f32⟩ : BufTy).Contents (Elt F) → (⟨S16x262144x5, .f32⟩ : BufTy).Contents (Elt F))),
    unary main_v26 main_v27 (Host.absf : ((⟨S16x262144x5, .f32⟩ : BufTy).Contents (Elt F) → (⟨S16x262144x5, .f32⟩ : BufTy).Contents (Elt F))),
    nullary main_cst_3 (constant S_ .f32 0x00000000#32),
    binary main_v27 main_cst_3 main_v28 ((fun x v => Host.reduceAdd x v reducesTo_S16x262144x5_S_d0_1_2 h_S_) : ((⟨S16x262144x5, .f32⟩ : BufTy).Contents (Elt F) → (⟨S_, .f32⟩ : BufTy).Contents (Elt F) → (⟨S_, .f32⟩ : BufTy).Contents (Elt F))),
    nullary main_cst_4 (constant S_ .f32 0x4BA00000#32),
    binary main_v28 main_cst_4 main_v29 (Host.divf : ((⟨S_, .f32⟩ : BufTy).Contents (Elt F) → (⟨S_, .f32⟩ : BufTy).Contents (Elt F) → (⟨S_, .f32⟩ : BufTy).Contents (Elt F))) ]

set_option maxRecDepth 65536 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 65536 in
theorem ops_sub : (ops : List (HloOp τ sig (Elt F))).Forall fun op => op.bufs ⊆ tcRefs τ sig :=
  ⟨reshape_bufs_sub .., unary_bufs_sub .., nullary_bufs_sub .., unary_bufs_sub .., binary_bufs_sub .., nullary_bufs_sub .., unary_bufs_sub .., binary_bufs_sub .., ternary_bufs_sub .., reshape_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., unary_bufs_sub .., binary_bufs_sub .., unary_bufs_sub .., binary_bufs_sub .., nullary_bufs_sub .., binary_bufs_sub .., unary_bufs_sub .., unary_bufs_sub .., nullary_bufs_sub .., unary_bufs_sub .., binary_bufs_sub .., nullary_bufs_sub .., unary_bufs_sub .., ternary_bufs_sub .., unary_bufs_sub .., binary_bufs_sub .., reshape_bufs_sub .., unary_bufs_sub .., nullary_bufs_sub .., unary_bufs_sub .., binary_bufs_sub .., nullary_bufs_sub .., unary_bufs_sub .., binary_bufs_sub .., ternary_bufs_sub .., reshape_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., unary_bufs_sub .., binary_bufs_sub .., unary_bufs_sub .., binary_bufs_sub .., nullary_bufs_sub .., binary_bufs_sub .., unary_bufs_sub .., unary_bufs_sub .., nullary_bufs_sub .., unary_bufs_sub .., binary_bufs_sub .., nullary_bufs_sub .., unary_bufs_sub .., ternary_bufs_sub .., unary_bufs_sub .., binary_bufs_sub .., binary_bufs_sub .., unary_bufs_sub .., nullary_bufs_sub .., binary_bufs_sub .., nullary_bufs_sub .., binary_bufs_sub ..⟩

/-! ## The typed references of the called functions

A called function's lines write and read their buffers through typed references: a value goes into the buffer along
the reference's type equation and comes back along it. Reading the run back, each such round trip is the identity
(stated once for every program in the general lemma module), and so is either direction alone at a reference whose
type equation holds by computation: -/

theorem toBuf_main_arg2 (h1 h2 h3) (v : (⟨S5x16x262144, .i32⟩ : BufTy).Contents (Elt F)) :
    (TRef.of (T := ⟨S5x16x262144, .i32⟩) main_arg2 h1 h2 h3).toBuf v = v := rfl
theorem ofBuf_main_arg2 (h1 h2 h3) (v : main_arg2.ty.Contents (Elt F)) :
    (TRef.of (T := ⟨S5x16x262144, .i32⟩) main_arg2 h1 h2 h3).ofBuf v = v := rfl
theorem toBuf_main_call0_v4 (h1 h2 h3) (v : (⟨S5x16x262144, .i32⟩ : BufTy).Contents (Elt F)) :
    (TRef.of (T := ⟨S5x16x262144, .i32⟩) main_call0_v4 h1 h2 h3).toBuf v = v := rfl
theorem ofBuf_main_call0_v4 (h1 h2 h3) (v : main_call0_v4.ty.Contents (Elt F)) :
    (TRef.of (T := ⟨S5x16x262144, .i32⟩) main_call0_v4 h1 h2 h3).ofBuf v = v := rfl
theorem toBuf_main_call0_v5 (h1 h2 h3) (v : (⟨S5x16x262144x1, .i32⟩ : BufTy).Contents (Elt F)) :
    (TRef.of (T := ⟨S5x16x262144x1, .i32⟩) main_call0_v5 h1 h2 h3).toBuf v = v := rfl
theorem ofBuf_main_call0_v5 (h1 h2 h3) (v : main_call0_v5.ty.Contents (Elt F)) :
    (TRef.of (T := ⟨S5x16x262144x1, .i32⟩) main_call0_v5 h1 h2 h3).ofBuf v = v := rfl
theorem toBuf_main_call0_v6 (h1 h2 h3) (v : (⟨S16x262144, .f32⟩ : BufTy).Contents (Elt F)) :
    (TRef.of (T := ⟨S16x262144, .f32⟩) main_call0_v6 h1 h2 h3).toBuf v = v := rfl
theorem ofBuf_main_call0_v6 (h1 h2 h3) (v : main_call0_v6.ty.Contents (Elt F)) :
    (TRef.of (T := ⟨S16x262144, .f32⟩) main_call0_v6 h1 h2 h3).ofBuf v = v := rfl
theorem toBuf_main_v1 (h1 h2 h3) (v : (⟨S1x16x262144, .f32⟩ : BufTy).Contents (Elt F)) :
    (TRef.of (T := ⟨S1x16x262144, .f32⟩) main_v1 h1 h2 h3).toBuf v = v := rfl
theorem ofBuf_main_v1 (h1 h2 h3) (v : main_v1.ty.Contents (Elt F)) :
    (TRef.of (T := ⟨S1x16x262144, .f32⟩) main_v1 h1 h2 h3).ofBuf v = v := rfl
theorem toBuf_main_v2 (h1 h2 h3) (v : (⟨S5x16x262144, .f32⟩ : BufTy).Contents (Elt F)) :
    (TRef.of (T := ⟨S5x16x262144, .f32⟩) main_v2 h1 h2 h3).toBuf v = v := rfl
theorem ofBuf_main_v2 (h1 h2 h3) (v : main_v2.ty.Contents (Elt F)) :
    (TRef.of (T := ⟨S5x16x262144, .f32⟩) main_v2 h1 h2 h3).ofBuf v = v := rfl
theorem toBuf_main_v6 (h1 h2 h3) (v : (⟨S16x262144x5, .f32⟩ : BufTy).Contents (Elt F)) :
    (TRef.of (T := ⟨S16x262144x5, .f32⟩) main_v6 h1 h2 h3).toBuf v = v := rfl
theorem ofBuf_main_v6 (h1 h2 h3) (v : main_v6.ty.Contents (Elt F)) :
    (TRef.of (T := ⟨S16x262144x5, .f32⟩) main_v6 h1 h2 h3).ofBuf v = v := rfl
theorem toBuf_main_v7 (h1 h2 h3) (v : (⟨S16x262144x1, .f32⟩ : BufTy).Contents (Elt F)) :
    (TRef.of (T := ⟨S16x262144x1, .f32⟩) main_v7 h1 h2 h3).toBuf v = v := rfl
theorem ofBuf_main_v7 (h1 h2 h3) (v : main_v7.ty.Contents (Elt F)) :
    (TRef.of (T := ⟨S16x262144x1, .f32⟩) main_v7 h1 h2 h3).ofBuf v = v := rfl
theorem toBuf_main_v9 (h1 h2 h3) (v : (⟨S16x262144x1, .i1⟩ : BufTy).Contents (Elt F)) :
    (TRef.of (T := ⟨S16x262144x1, .i1⟩) main_v9 h1 h2 h3).toBuf v = v := rfl
theorem ofBuf_main_v9 (h1 h2 h3) (v : main_v9.ty.Contents (Elt F)) :
    (TRef.of (T := ⟨S16x262144x1, .i1⟩) main_v9 h1 h2 h3).ofBuf v = v := rfl
theorem toBuf_main_cst_0 (h1 h2 h3) (v : (⟨S_, .f32⟩ : BufTy).Contents (Elt F)) :
    (TRef.of (T := ⟨S_, .f32⟩) main_cst_0 h1 h2 h3).toBuf v = v := rfl
theorem ofBuf_main_cst_0 (h1 h2 h3) (v : main_cst_0.ty.Contents (Elt F)) :
    (TRef.of (T := ⟨S_, .f32⟩) main_cst_0 h1 h2 h3).ofBuf v = v := rfl
theorem toBuf_main_v10 (h1 h2 h3) (v : (⟨S16x262144x1, .f32⟩ : BufTy).Contents (Elt F)) :
    (TRef.of (T := ⟨S16x262144x1, .f32⟩) main_v10 h1 h2 h3).toBuf v = v := rfl
theorem ofBuf_main_v10 (h1 h2 h3) (v : main_v10.ty.Contents (Elt F)) :
    (TRef.of (T := ⟨S16x262144x1, .f32⟩) main_v10 h1 h2 h3).ofBuf v = v := rfl
theorem toBuf_main_call3_v4 (h1 h2 h3) (v : (⟨S5x16x262144, .i32⟩ : BufTy).Contents (Elt F)) :
    (TRef.of (T := ⟨S5x16x262144, .i32⟩) main_call3_v4 h1 h2 h3).toBuf v = v := rfl
theorem ofBuf_main_call3_v4 (h1 h2 h3) (v : main_call3_v4.ty.Contents (Elt F)) :
    (TRef.of (T := ⟨S5x16x262144, .i32⟩) main_call3_v4 h1 h2 h3).ofBuf v = v := rfl
theorem toBuf_main_call3_v5 (h1 h2 h3) (v : (⟨S5x16x262144x1, .i32⟩ : BufTy).Contents (Elt F)) :
    (TRef.of (T := ⟨S5x16x262144x1, .i32⟩) main_call3_v5 h1 h2 h3).toBuf v = v := rfl
theorem ofBuf_main_call3_v5 (h1 h2 h3) (v : main_call3_v5.ty.Contents (Elt F)) :
    (TRef.of (T := ⟨S5x16x262144x1, .i32⟩) main_call3_v5 h1 h2 h3).ofBuf v = v := rfl
theorem toBuf_main_call3_v6 (h1 h2 h3) (v : (⟨S16x262144, .f32⟩ : BufTy).Contents (Elt F)) :
    (TRef.of (T := ⟨S16x262144, .f32⟩) main_call3_v6 h1 h2 h3).toBuf v = v := rfl
theorem ofBuf_main_call3_v6 (h1 h2 h3) (v : main_call3_v6.ty.Contents (Elt F)) :
    (TRef.of (T := ⟨S16x262144, .f32⟩) main_call3_v6 h1 h2 h3).ofBuf v = v := rfl
theorem toBuf_main_v14 (h1 h2 h3) (v : (⟨S1x16x262144, .f32⟩ : BufTy).Contents (Elt F)) :
    (TRef.of (T := ⟨S1x16x262144, .f32⟩) main_v14 h1 h2 h3).toBuf v = v := rfl
theorem ofBuf_main_v14 (h1 h2 h3) (v : main_v14.ty.Contents (Elt F)) :
    (TRef.of (T := ⟨S1x16x262144, .f32⟩) main_v14 h1 h2 h3).ofBuf v = v := rfl
theorem toBuf_main_v15 (h1 h2 h3) (v : (⟨S5x16x262144, .f32⟩ : BufTy).Contents (Elt F)) :
    (TRef.of (T := ⟨S5x16x262144, .f32⟩) main_v15 h1 h2 h3).toBuf v = v := rfl
theorem ofBuf_main_v15 (h1 h2 h3) (v : main_v15.ty.Contents (Elt F)) :
    (TRef.of (T := ⟨S5x16x262144, .f32⟩) main_v15 h1 h2 h3).ofBuf v = v := rfl
theorem toBuf_main_v19 (h1 h2 h3) (v : (⟨S16x262144x5, .f32⟩ : BufTy).Contents (Elt F)) :
    (TRef.of (T := ⟨S16x262144x5, .f32⟩) main_v19 h1 h2 h3).toBuf v = v := rfl
theorem ofBuf_main_v19 (h1 h2 h3) (v : main_v19.ty.Contents (Elt F)) :
    (TRef.of (T := ⟨S16x262144x5, .f32⟩) main_v19 h1 h2 h3).ofBuf v = v := rfl
theorem toBuf_main_v20 (h1 h2 h3) (v : (⟨S16x262144x1, .f32⟩ : BufTy).Contents (Elt F)) :
    (TRef.of (T := ⟨S16x262144x1, .f32⟩) main_v20 h1 h2 h3).toBuf v = v := rfl
theorem ofBuf_main_v20 (h1 h2 h3) (v : main_v20.ty.Contents (Elt F)) :
    (TRef.of (T := ⟨S16x262144x1, .f32⟩) main_v20 h1 h2 h3).ofBuf v = v := rfl
theorem toBuf_main_v22 (h1 h2 h3) (v : (⟨S16x262144x1, .i1⟩ : BufTy).Contents (Elt F)) :
    (TRef.of (T := ⟨S16x262144x1, .i1⟩) main_v22 h1 h2 h3).toBuf v = v := rfl
theorem ofBuf_main_v22 (h1 h2 h3) (v : main_v22.ty.Contents (Elt F)) :
    (TRef.of (T := ⟨S16x262144x1, .i1⟩) main_v22 h1 h2 h3).ofBuf v = v := rfl
theorem toBuf_main_cst_2 (h1 h2 h3) (v : (⟨S_, .f32⟩ : BufTy).Contents (Elt F)) :
    (TRef.of (T := ⟨S_, .f32⟩) main_cst_2 h1 h2 h3).toBuf v = v := rfl
theorem ofBuf_main_cst_2 (h1 h2 h3) (v : main_cst_2.ty.Contents (Elt F)) :
    (TRef.of (T := ⟨S_, .f32⟩) main_cst_2 h1 h2 h3).ofBuf v = v := rfl
theorem toBuf_main_v23 (h1 h2 h3) (v : (⟨S16x262144x1, .f32⟩ : BufTy).Contents (Elt F)) :
    (TRef.of (T := ⟨S16x262144x1, .f32⟩) main_v23 h1 h2 h3).toBuf v = v := rfl
theorem ofBuf_main_v23 (h1 h2 h3) (v : main_v23.ty.Contents (Elt F)) :
    (TRef.of (T := ⟨S16x262144x1, .f32⟩) main_v23 h1 h2 h3).ofBuf v = v := rfl

/-! ## The run -/

set_option maxRecDepth 65536 in
set_option maxHeartbeats 40000000 in
/-- Every weakly fair execution of the program terminates with the result at `loss` of the arguments' launch
    contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
          = loss (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v29).trans (by
        after_results_simp
        simp only [TRef.ofBuf_toBuf, toBuf_main_arg2, ofBuf_main_arg2, toBuf_main_call0_v4, ofBuf_main_call0_v4, toBuf_main_call0_v5, ofBuf_main_call0_v5, toBuf_main_call0_v6, ofBuf_main_call0_v6, toBuf_main_v1, ofBuf_main_v1, toBuf_main_v2, ofBuf_main_v2, toBuf_main_v6, ofBuf_main_v6, toBuf_main_v7, ofBuf_main_v7, toBuf_main_v9, ofBuf_main_v9, toBuf_main_cst_0, ofBuf_main_cst_0, toBuf_main_v10, ofBuf_main_v10, toBuf_main_call3_v4, ofBuf_main_call3_v4, toBuf_main_call3_v5, ofBuf_main_call3_v5, toBuf_main_call3_v6, ofBuf_main_call3_v6, toBuf_main_v14, ofBuf_main_v14, toBuf_main_v15, ofBuf_main_v15, toBuf_main_v19, ofBuf_main_v19, toBuf_main_v20, ofBuf_main_v20, toBuf_main_v22, ofBuf_main_v22, toBuf_main_cst_2, ofBuf_main_cst_2, toBuf_main_v23, ofBuf_main_v23]
        rfl),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RefRun

end
-- ==== Proof.LossSpec.lean ====
/-
  The mathematics of the loss, over the extended reals, with no program in sight.

  For one pixel let `a` and `b` be its two vectors of five differences (the prediction's and the target's).
  `gapAt a b k` is the absolute difference of the `k`-th components of the two vectors after each is divided by its
  Euclidean length (by one when that length is zero). The loss is the sum of `gapAt` over all pixels and
  components, divided by the count of summands, 16 · 262144 · 5 = 20971520; dividing first by 262144 · 5 = 1310720
  and then by 16 is the same, on every extended real, because both divisors are nonzero reals.

  The sums are finite sums in a commutative monoid, so they may be taken in any order and grouping: over the
  three coordinates of an index one at a time, and over a batch index as (half, row in the half) and a pixel index
  as (tile, pixel in the tile). No finiteness of the summands is used anywhere.
-/
import Idealize.ShloMosaic.PureOps.Ideal
import Idealize.ShloMosaic.PureOps.Ideal.Laws
import Idealize.ShloMosaic.Lib.ValueIdx

noncomputable section

namespace Cert.LossSpec

open Idealize.ShloMosaic Idealize.ShloMosaic.ValueIdx

/-! ## The three divisors -/

/-- The word for 262144 · 5 denotes that real. -/
theorem ofBits_pixels5 : Ideal.ofBits .f32 0x49A00000#32 = ((1310720 : ℝ) : EReal) := by
  simp [Ideal.ofBits, Ideal.ieee, -EReal.coe_mul]; norm_num

/-- The word for the batch size denotes 16. -/
theorem ofBits_batch : Ideal.ofBits .f32 0x41800000#32 = ((16 : ℝ) : EReal) := by
  simp [Ideal.ofBits, Ideal.ieee, -EReal.coe_mul]; norm_num

/-- The word for 16 · 262144 · 5 denotes that real. -/
theorem ofBits_count : Ideal.ofBits .f32 0x4BA00000#32 = ((20971520 : ℝ) : EReal) := by
  simp [Ideal.ofBits, Ideal.ieee, -EReal.coe_mul]; norm_num

/-- Dividing by 1310720 and then by 16 is dividing by 20971520, at the infinities too: each division by a nonzero
    real is a product with its reciprocal, and the two reciprocals multiply to the third. -/
theorem div_div_count (x : EReal) :
    Ideal.div (Ideal.div x (Ideal.ofBits .f32 0x49A00000#32)) (Ideal.ofBits .f32 0x41800000#32)
      = Ideal.div x (Ideal.ofBits .f32 0x4BA00000#32) := by
  rw [ofBits_pixels5, ofBits_batch, ofBits_count,
    Ideal.div_coe (by norm_num : (1310720 : ℝ) ≠ 0), Ideal.div_coe (by norm_num : (16 : ℝ) ≠ 0),
    Ideal.div_coe (by norm_num : (20971520 : ℝ) ≠ 0), mul_assoc, ← EReal.coe_mul]
  congr 2
  norm_num

/-! ## The host's operations at an index, on the extended reals -/

theorem hostDivf_apply {s : Shape} {φ : FTy} (x y : FVec Ideal s φ) (i : s.Idx) :
    Host.divf x y i = Ideal.div (x i) (y i) := rfl

theorem hostAbsf_apply {s : Shape} {φ : FTy} (x : FVec Ideal s φ) (i : s.Idx) :
    Host.absf x i = FloatOps.absf (x i) := rfl

theorem hostSqrt_apply {s : Shape} {φ : FTy} (x : FVec Ideal s φ) (i : s.Idx) :
    Host.sqrt x i = Ideal.sqrt (x i) := rfl

theorem absf_apply {s : Shape} {φ : FTy} (x : FVec Ideal s φ) (i : s.Idx) :
    absf x i = FloatOps.absf (x i) := rfl

theorem sqrt_apply {s : Shape} {φ : FTy} (x : FVec Ideal s φ) (i : s.Idx) :
    sqrt x i = Ideal.sqrt (x i) := rfl

/-- The host's float sum at a reduced index: the initial value plus the sum of what reduces to it. -/
theorem hostReduceAdd_apply {s t u : Shape} {axes : List (Fin s.rank)} {φ : FTy} (x : FVec Ideal s φ) (init : u.Idx → Ideal φ)
    (h : s.ReducesTo axes t) (hu : 0 < u.numel) (j : t.Idx) :
    Host.reduceAdd x init h hu j = Ideal.hostReduceAdd h x (init (Shape.Idx.first hu)) j := rfl

/-! ## One pixel -/

/-- The Euclidean length of a vector of five differences. -/
def lenOf (d : Fin 5 → EReal) : EReal := Ideal.sqrt (∑ k, d k * d k)

/-- A length with one in place of zero. -/
def guardOf (l : EReal) : EReal :=
  Scalar.select (FloatOps.cmpf (F := Ideal) (φ := .f32) .oeq l (Ideal.ofBits .f32 0x00000000#32))
    (Ideal.ofBits .f32 0x3F800000#32) l

/-- The `k`-th component's gap between the two unit vectors. -/
def gapAt (a b : Fin 5 → EReal) (k : Fin 5) : EReal :=
  FloatOps.absf (F := Ideal) (φ := .f32)
    (Ideal.div (a k) (guardOf (lenOf a)) - Ideal.div (b k) (guardOf (lenOf b)))

/-- The sum of five squares as the program accumulates it from zero, one component after another. -/
theorem sum_sq_chain (d : Fin 5 → EReal) :
    ((((Ideal.ofBits .f32 0x00000000#32 + d 0 * d 0) + d 1 * d 1) + d 2 * d 2) + d 3 * d 3) + d 4 * d 4
      = ∑ k, d k * d k := by
  rw [Ideal.ofBits_zero_f32, zero_add, Fin.sum_univ_five]

/-- The same sum as a reduction states it: the initial zero plus the sum. -/
theorem sum_sq_init (d : Fin 5 → EReal) :
    Ideal.ofBits .f32 0x00000000#32 + ∑ k, d k * d k = ∑ k, d k * d k := by
  rw [Ideal.ofBits_zero_f32, zero_add]

/-- Five gaps accumulated from zero, one after another, are their sum. -/
theorem sum_gap_chain (g : Fin 5 → EReal) :
    ((((Ideal.ofBits .f32 0x00000000#32 + g 0) + g 1) + g 2) + g 3) + g 4 = ∑ k, g k := by
  rw [Ideal.ofBits_zero_f32, zero_add, Fin.sum_univ_five]

/-! ## Sums over an index, one coordinate at a time -/

/-- An index of a rank-3 array is its three coordinates. -/
def idxEquiv3 {n0 n1 n2 : Nat} : (⟨3, ![n0, n1, n2]⟩ : Shape).Idx ≃ Fin n0 × Fin n1 × Fin n2 where
  toFun j := (j 0, j 1, j 2)
  invFun p := ix3 p.1 p.2.1 p.2.2
  left_inv j := (eq_ix3 j).symm
  right_inv _ := rfl

/-- A sum over the indices of a rank-3 array is the iterated sum over its coordinates. -/
theorem sum_idx3 {M : Type*} [AddCommMonoid M] {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp idxEquiv3.symm f, Fintype.sum_prod_type]
  refine Finset.sum_congr rfl fun a _ => ?_
  rw [Fintype.sum_prod_type]
  rfl

/-- A sum over `m · n` indices is the sum over (block, offset in the block). -/
theorem sum_blocks {M : Type*} [AddCommMonoid M] (m n : Nat) (f : Fin (m * n) → M) :
    ∑ x, f x = ∑ i : Fin m, ∑ j : Fin n, f (finProdFinEquiv (i, j)) := by
  rw [← Equiv.sum_comp finProdFinEquiv f, Fintype.sum_prod_type]

/-! ## The loss as a sum over pixels, and the same sum tile by tile -/

/-- Pixel `(b, n)`'s vector of five differences, from a batch's rows `R` and the rows read through the index rows `T`. -/
def dvec (R : (⟨2, ![16, 262144]⟩ : Shape).Idx → EReal) (T : (⟨3, ![5, 16, 262144]⟩ : Shape).Idx → EReal)
    (b : Fin 16) (n : Fin 262144) : Fin 5 → EReal :=
  fun k => R (ix2 b n) - T (ix3 k b n)

/-- One pixel's sum of the five gaps. -/
def pixelGap (R0 : (⟨2, ![16, 262144]⟩ : Shape).Idx → EReal) (T0 : (⟨3, ![5, 16, 262144]⟩ : Shape).Idx → EReal)
    (R1 : (⟨2, ![16, 262144]⟩ : Shape).Idx → EReal) (T1 : (⟨3, ![5, 16, 262144]⟩ : Shape).Idx → EReal)
    (b : Fin 16) (n : Fin 262144) : EReal :=
  ∑ k : Fin 5, gapAt (dvec R0 T0 b n) (dvec R1 T1 b n) k

/-- The batch index as (half, row in the half) and the pixel index as (tile, pixel in the tile). -/
abbrev rowOf (bi : Fin 2) (p : Fin 8) : Fin 16 := finProdFinEquiv (bi, p)
abbrev pixOf (ni : Fin 8) (q : Fin 32768) : Fin 262144 := finProdFinEquiv (ni, q)

theorem rowOf_val (bi : Fin 2) (p : Fin 8) : (rowOf bi p).val = p.val + 8 * bi.val := rfl
theorem pixOf_val (ni : Fin 8) (q : Fin 32768) : (pixOf ni q).val = q.val + 32768 * ni.val := rfl

/-- A sum over all rows and pixels is the sum over halves, tiles, rows of the tile and pixels of the tile: a finite
    sum in a commutative monoid regrouped and reordered. -/
theorem sum_tiles {M : Type*} [AddCommMonoid M] (G : Fin 16 → Fin 262144 → M) :
    ∑ b : Fin 16, ∑ n : Fin 262144, G b n
      = ∑ bi : Fin 2, ∑ ni : Fin 8, ∑ p : Fin 8, ∑ q : Fin 32768, G (rowOf bi p) (pixOf ni q) := by
  rw [sum_blocks 2 8 (fun b => ∑ n : Fin 262144, G b n)]
  refine Finset.sum_congr rfl fun bi _ => ?_
  have e : ∀ p : Fin 8, ∑ n : Fin 262144, G (finProdFinEquiv (bi, p)) n
      = ∑ ni : Fin 8, ∑ q : Fin 32768, G (rowOf bi p) (pixOf ni q) :=
    fun p => sum_blocks 8 32768 (fun n => G (finProdFinEquiv (bi, p)) n)
  rw [Finset.sum_congr rfl (fun p _ => e p)]
  exact Finset.sum_comm

end Cert.LossSpec

end
-- ==== Proof.RefSide.lean ====
/-
  The reference's result read index by index at the extended reals.

  Write `R` for a batch's rows of pixels and `T` for those rows read through the five index rows. At pixel
  `(b, n)` the reference's vector of differences has `k`-th component `R (b, n) − T (k, b, n)`; its length is the
  square root of the sum of the five squares; and the result is the sum, over all pixels and components, of the
  gap between the prediction's and the target's unit vectors, divided by the count of summands.
-/
import proofs.«138854_j16561393893906_2_alg».proof.Proof.RefRun
import proofs.«138854_j16561393893906_2_alg».proof.Proof.LossSpec
import Idealize.ShloMosaic.Lib.Pipeline.Value
import Idealize.ShloMosaic.Lib.ValueIdx
import Idealize.ShloMosaic.PureOps.Ideal.Laws

noncomputable section

namespace Cert.ReferenceIdeal.RefSide

open Cert.ReferenceIdeal Cert.ReferenceIdeal.Gen Cert.ReferenceIdeal.RefRun Idealize.ShloMosaic Idealize.ShloMosaic.ValueIdx Cert.LossSpec

/-- The differences array at `(b, n, k)`: the row's pixel minus its gathered copy. -/
theorem diffs_apply (x : (⟨S16x1x512x512, .f32⟩ : BufTy).Contents (Elt Ideal)) (p : (⟨S5x16x262144, .i32⟩ : BufTy).Contents (Elt Ideal))
    (b : Fin 16) (n : Fin 262144) (k : Fin 5) :
    diffs (F := Ideal) x p (ix3 b n k) = dvec (rows (F := Ideal) x) (taken (F := Ideal) (lead (rows x)) p) b n k := by
  unfold diffs dvec
  rw [transpose_apply [1, 2, 0] _ transposes_S5x16x262144_S16x262144x5_1_2_0 (ix3 b n k) (ix3 k b n)
    (fun a => by match a with | ⟨0, _⟩ => rfl | ⟨1, _⟩ => rfl | ⟨2, _⟩ => rfl)]
  rw [subf_apply]
  rw [broadcastInDim_apply ![0, 1, 2] bcast_S1x16x262144_S5x16x262144_0_1_2 (lead (rows x)) (ix3 k b n) (ix3 (0 : Fin 1) b n)
    (fun a => by
      match a with
      | ⟨0, _⟩ => rfl
      | ⟨1, _⟩ => show b.val = if (16 : Nat) = 1 then 0 else b.val; rw [if_neg (by decide)]
      | ⟨2, _⟩ => show n.val = if (262144 : Nat) = 1 then 0 else n.val; rw [if_neg (by decide)])]
  unfold lead
  rw [broadcastInDim_apply ![1, 2] bcast_S16x262144_S1x16x262144_1_2 (rows x) (ix3 (0 : Fin 1) b n) (ix2 b n)
    (fun a => by
      match a with
      | ⟨0, _⟩ => show b.val = if (16 : Nat) = 1 then 0 else b.val; rw [if_neg (by decide)]
      | ⟨1, _⟩ => show n.val = if (262144 : Nat) = 1 then 0 else n.val; rw [if_neg (by decide)])]

/-- The sum of the five squares at a pixel, as the reduction over the component axis states it. -/
theorem sumsq_apply (d : FVec Ideal S16x262144x5 .f32) (b : Fin 16) (n : Fin 262144) :
    Host.reduceAdd (mulf d d) (constant S_ .f32 0x00000000#32) reducesTo_S16x262144x5_S16x262144_d2 h_S_ (ix2 b n)
      = ∑ k : Fin 5, d (ix3 b n k) * d (ix3 b n k) := by
  have hr : S16x262144x5.Reduces [2] S16x262144 := by decide
  rw [hostReduceAdd_apply, constant_apply,
    Ideal.hostReduceAdd_single reducesTo_S16x262144x5_S16x262144_d2 hr, Ideal.ofBits_zero_f32, zero_add]
  refine Finset.sum_congr rfl fun k _ => ?_
  have e : hr.lift (ix2 b n) k = ix3 b n k := by
    funext a; apply Fin.ext
    match a with
    | ⟨0, _⟩ => rfl
    | ⟨1, _⟩ => rfl
    | ⟨2, _⟩ => rfl
  rw [mulf_apply, e]
  rfl

/-- The guarded length of a pixel's vector. -/
theorem guarded_apply (d : FVec Ideal S16x262144x5 .f32) (b : Fin 16) (n : Fin 262144) :
    guarded (F := Ideal) d (ix3 b n (0 : Fin 1)) = guardOf (lenOf fun k => d (ix3 b n k)) := by
  have hlen : len (F := Ideal) d (ix3 b n (0 : Fin 1)) = lenOf fun k => d (ix3 b n k) := by
    unfold len lenOf
    rw [hostSqrt_apply, broadcastInDim_apply (s := S16x262144) ![0, 1] bcast_S16x262144_S16x262144x1_0_1 _ (ix3 b n (0 : Fin 1)) (ix2 b n)
      (fun a => by
        match a with
        | ⟨0, _⟩ => show b.val = if (16 : Nat) = 1 then 0 else b.val; rw [if_neg (by decide)]
        | ⟨1, _⟩ => show n.val = if (262144 : Nat) = 1 then 0 else n.val; rw [if_neg (by decide)]),
      sumsq_apply]
  unfold guarded guardOf
  rw [select_apply, cmpf_apply, hlen]
  rfl

/-- One component of a pixel's unit vector. -/
theorem unitVec_apply (d : FVec Ideal S16x262144x5 .f32) (b : Fin 16) (n : Fin 262144) (k : Fin 5) :
    unitVec (F := Ideal) d (ix3 b n k) = Ideal.div (d (ix3 b n k)) (guardOf (lenOf fun k => d (ix3 b n k))) := by
  unfold unitVec
  rw [hostDivf_apply, broadcastInDim_apply ![0, 1, 2] bcast_S16x262144x1_S16x262144x5_0_1_2 (guarded (F := Ideal) d) (ix3 b n k) (ix3 b n (0 : Fin 1))
    (fun a => by
      match a with
      | ⟨0, _⟩ => show b.val = if (16 : Nat) = 1 then 0 else b.val; rw [if_neg (by decide)]
      | ⟨1, _⟩ => show n.val = if (262144 : Nat) = 1 then 0 else n.val; rw [if_neg (by decide)]
      | ⟨2, _⟩ => rfl),
    guarded_apply]

/-- The gaps array at `(b, n, k)`. -/
theorem gaps_apply (x0 x1 : (⟨S16x1x512x512, .f32⟩ : BufTy).Contents (Elt Ideal)) (p : (⟨S5x16x262144, .i32⟩ : BufTy).Contents (Elt Ideal))
    (b : Fin 16) (n : Fin 262144) (k : Fin 5) :
    gaps (F := Ideal) x0 x1 p (ix3 b n k)
      = gapAt (dvec (rows (F := Ideal) x0) (taken (F := Ideal) (lead (rows x0)) p) b n)
          (dvec (rows (F := Ideal) x1) (taken (F := Ideal) (lead (rows x1)) p) b n) k := by
  unfold gaps gapAt
  rw [hostAbsf_apply, subf_apply, unitVec_apply, unitVec_apply]
  simp only [diffs_apply]

/-- THE REFERENCE'S RESULT: the sum of the gaps over pixels and components, over the count of summands. -/
theorem loss_eq (x0 x1 : (⟨S16x1x512x512, .f32⟩ : BufTy).Contents (Elt Ideal)) (p : (⟨S5x16x262144, .i32⟩ : BufTy).Contents (Elt Ideal)) :
    loss (F := Ideal) x0 x1 p = fun _ => Ideal.div
      (∑ b : Fin 16, ∑ n : Fin 262144,
        pixelGap (rows (F := Ideal) x0) (taken (F := Ideal) (lead (rows x0)) p)
          (rows (F := Ideal) x1) (taken (F := Ideal) (lead (rows x1)) p) b n)
      (Ideal.ofBits .f32 0x4BA00000#32) := by
  funext j
  unfold loss
  rw [hostDivf_apply, hostReduceAdd_apply, constant_apply, constant_apply, Ideal.hostReduceAdd_total reducesTo_S16x262144x5_S_d0_1_2 (fun a => a.elim0), Ideal.ofBits_zero_f32, zero_add, sum_idx3]
  simp only [gaps_apply]
  rfl

end Cert.ReferenceIdeal.RefSide

end
-- ==== Proof.KHost.lean ====
/-
  What the kernel's region finds in its four input arrays, as functions of the program's arguments.

  Before the region the program flattens both image batches to rows, stacks the two batches' rows along a new last
  axis of length two, gathers the stacked rows once through the five index rows (an index below zero shifted up by
  the row length; the fill word where the shifted index is outside the row), and takes the two components apart
  again. So the region's first two arrays are the batches' rows, and its last two are each batch's rows read
  through the indices.
-/
import proofs.«138854_j16561393893906_2_alg».proof.Proof.Gen.KernelIdeal.Frame
import proofs.«138854_j16561393893906_2_alg».proof.Proof.LibTypedRef
import Idealize.ShloMosaic.Lib.StableHlo.Run

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

/-! ## The stages -/

/-- A batch of images as rows of pixels. -/
def rows (x : (⟨S16x1x512x512, .f32⟩ : BufTy).Contents (Elt F)) : (⟨S16x262144, .f32⟩ : BufTy).Contents (Elt F) :=
  shapeCast _ x shapeCasts_S16x1x512x512_S16x262144

/-- The two batches' rows side by side on a last axis of length two. -/
def stacked (x0 x1 : (⟨S16x1x512x512, .f32⟩ : BufTy).Contents (Elt F)) : (⟨S16x262144x2, .f32⟩ : BufTy).Contents (Elt F) :=
  concatenate S16x262144x2 2
    [⟨S16x262144x1, broadcastInDim S16x262144x1 ![0, 1] bcast_S16x262144_S16x262144x1_0_1 (rows x0)⟩,
     ⟨S16x262144x1, broadcastInDim S16x262144x1 ![0, 1] bcast_S16x262144_S16x262144x1_0_1 (rows x1)⟩]
    concatenates_S16x262144x1_S16x262144x1_S16x262144x2_d2

/-- The indices under a trailing unit axis, the negative ones shifted up by the row length. -/
def starts (p : (⟨S5x16x262144, .i32⟩ : BufTy).Contents (Elt F)) : (⟨S5x16x262144x1, .i32⟩ : BufTy).Contents (Elt F) :=
  select (cmpi .slt (broadcastInDim S5x16x262144x1 ![0, 1, 2] bcast_S5x16x262144_S5x16x262144x1_0_1_2 p)
      (broadcastInDim S5x16x262144x1 ![] bcast_S_S5x16x262144x1 (constantI S_ 32 0#32)))
    (addi (broadcastInDim S5x16x262144x1 ![0, 1, 2] bcast_S5x16x262144_S5x16x262144x1_0_1_2 p)
      (broadcastInDim S5x16x262144x1 ![] bcast_S_S5x16x262144x1 (constantI S_ 32 262144#32)))
    (broadcastInDim S5x16x262144x1 ![0, 1, 2] bcast_S5x16x262144_S5x16x262144x1_0_1_2 p)

/-- Whether a shifted index lies inside the row. -/
def inRow (p : (⟨S5x16x262144, .i32⟩ : BufTy).Contents (Elt F)) : (⟨S5x16x262144, .i1⟩ : BufTy).Contents (Elt F) :=
  Host.reduce IntOp.andi
    (andi (cmpi .sge (starts p) (broadcastInDim S5x16x262144x1 ![] bcast_S_S5x16x262144x1 (constantI S_ 32 0#32)))
      (cmpi .sle (starts p) (broadcastInDim S5x16x262144x1 ![0, 1, 2, 3] bcast_S1x1x1x1_S5x16x262144x1_0_1_2_3
        (broadcastInDim S1x1x1x1 ![3] bcast_S1_S1x1x1x1_3 (constantI S1 32 262143#32)))))
    (constantI S_ 1 1#1) reducesTo_S5x16x262144x1_S5x16x262144_d3 h_S_

/-- The stacked rows read through the five index rows, both components at once. -/
def takenPair (x0 x1 : (⟨S16x1x512x512, .f32⟩ : BufTy).Contents (Elt F)) (p : (⟨S5x16x262144, .i32⟩ : BufTy).Contents (Elt F)) : (⟨S5x16x262144x2, .f32⟩ : BufTy).Contents (Elt F) :=
  select (broadcastInDim S5x16x262144x2 ![0, 1, 2] bcast_S5x16x262144_S5x16x262144x2_0_1_2 (inRow p))
    (Host.gather gather_S16x262144x2_S5x16x262144x1_S5x16x262144x2_3_1_0_1_1_3_112
      (shapeCast _ (broadcastInDim S1x16x262144x2 ![1, 2, 3] bcast_S16x262144x2_S1x16x262144x2_1_2_3 (stacked x0 x1))
        shapeCasts_S1x16x262144x2_S16x262144x2) (starts p))
    (broadcastInDim S5x16x262144x2 ![] bcast_S_S5x16x262144x2 (constant S_ .f32 0x7FC00000#32))

/-- The first component: the first batch's rows read through the indices. -/
def taken0 (x0 x1 : (⟨S16x1x512x512, .f32⟩ : BufTy).Contents (Elt F)) (p : (⟨S5x16x262144, .i32⟩ : BufTy).Contents (Elt F)) : (⟨S5x16x262144, .f32⟩ : BufTy).Contents (Elt F) :=
  shapeCast _ (extractStridedSlice S5x16x262144x1 ![0, 0, 0, 0] (takenPair x0 x1 p) slices_S5x16x262144x2_S5x16x262144x1_0_0_0_0)
    shapeCasts_S5x16x262144x1_S5x16x262144

/-- The second component: the second batch's. -/
def taken1 (x0 x1 : (⟨S16x1x512x512, .f32⟩ : BufTy).Contents (Elt F)) (p : (⟨S5x16x262144, .i32⟩ : BufTy).Contents (Elt F)) : (⟨S5x16x262144, .f32⟩ : BufTy).Contents (Elt F) :=
  shapeCast _ (extractStridedSlice S5x16x262144x1 ![0, 0, 0, 1] (takenPair x0 x1 p) slices_S5x16x262144x2_S5x16x262144x1_0_0_0_1)
    shapeCasts_S5x16x262144x1_S5x16x262144

/-! ## Either direction alone through a typed reference whose type equation holds by computation -/

theorem toBuf_main_v5 (h1 h2 h3) (v : (⟨S5x16x262144x1, .i32⟩ : BufTy).Contents (Elt F)) :
    (TRef.of (T := ⟨S5x16x262144x1, .i32⟩) main_v5 h1 h2 h3).toBuf v = v := rfl
theorem ofBuf_main_v5 (h1 h2 h3) (v : main_v5.ty.Contents (Elt F)) :
    (TRef.of (T := ⟨S5x16x262144x1, .i32⟩) main_v5 h1 h2 h3).ofBuf v = v := rfl
theorem toBuf_main_v6 (h1 h2 h3) (v : (⟨S1x16x262144x2, .f32⟩ : BufTy).Contents (Elt F)) :
    (TRef.of (T := ⟨S1x16x262144x2, .f32⟩) main_v6 h1 h2 h3).toBuf v = v := rfl
theorem ofBuf_main_v6 (h1 h2 h3) (v : main_v6.ty.Contents (Elt F)) :
    (TRef.of (T := ⟨S1x16x262144x2, .f32⟩) main_v6 h1 h2 h3).ofBuf v = v := rfl
theorem toBuf_main_call0_v5 (h1 h2 h3) (v : (⟨S16x262144x2, .f32⟩ : BufTy).Contents (Elt F)) :
    (TRef.of (T := ⟨S16x262144x2, .f32⟩) main_call0_v5 h1 h2 h3).toBuf v = v := rfl
theorem ofBuf_main_call0_v5 (h1 h2 h3) (v : main_call0_v5.ty.Contents (Elt F)) :
    (TRef.of (T := ⟨S16x262144x2, .f32⟩) main_call0_v5 h1 h2 h3).ofBuf v = v := rfl
theorem toBuf_main_call0_v4 (h1 h2 h3) (v : (⟨S5x16x262144x1, .i32⟩ : BufTy).Contents (Elt F)) :
    (TRef.of (T := ⟨S5x16x262144x1, .i32⟩) main_call0_v4 h1 h2 h3).toBuf v = v := rfl
theorem ofBuf_main_call0_v4 (h1 h2 h3) (v : main_call0_v4.ty.Contents (Elt F)) :
    (TRef.of (T := ⟨S5x16x262144x1, .i32⟩) main_call0_v4 h1 h2 h3).ofBuf v = v := rfl
theorem toBuf_main_v7 (h1 h2 h3) (v : (⟨S5x16x262144x2, .f32⟩ : BufTy).Contents (Elt F)) :
    (TRef.of (T := ⟨S5x16x262144x2, .f32⟩) main_v7 h1 h2 h3).toBuf v = v := rfl
theorem ofBuf_main_v7 (h1 h2 h3) (v : main_v7.ty.Contents (Elt F)) :
    (TRef.of (T := ⟨S5x16x262144x2, .f32⟩) main_v7 h1 h2 h3).ofBuf v = v := rfl

/-! ## What the region finds -/

variable (m : (ℓ : Loc nD τ sig) → Buf (Elt F) ℓ)

set_option maxRecDepth 65536 in
/-- Window 0's array: the first batch's rows. -/
theorem V_rows0 (c : Dev nD) :
    (V m c main_v0 : S16x262144.Idx → Elt F .f32) = rows (m ((c : Thread nD τ).loc main_arg0)) := by
  dsimp only [Gen.V, Gen.V0]
  simp only [Gen.hostOps0, Gen.hostOps0_1, Gen.hostOps0_2, List.flatten_cons, List.flatten_nil, List.append_nil, List.cons_append,
    List.nil_append]
  after_results_simp
  rfl

set_option maxRecDepth 65536 in
/-- Window 1's array: the second batch's rows. -/
theorem V_rows1 (c : Dev nD) :
    (V m c main_v1 : S16x262144.Idx → Elt F .f32) = rows (m ((c : Thread nD τ).loc main_arg1)) := by
  dsimp only [Gen.V, Gen.V0]
  simp only [Gen.hostOps0, Gen.hostOps0_1, Gen.hostOps0_2, List.flatten_cons, List.flatten_nil, List.append_nil, List.cons_append,
    List.nil_append]
  after_results_simp
  rfl

set_option maxRecDepth 65536 in
set_option maxHeartbeats 4000000 in
/-- Window 2's array: the first batch's rows read through the indices. -/
theorem V_taken0 (c : Dev nD) :
    (V m c main_v9 : S5x16x262144.Idx → Elt F .f32)
      = taken0 (m ((c : Thread nD τ).loc main_arg0)) (m ((c : Thread nD τ).loc main_arg1)) (m ((c : Thread nD τ).loc main_arg2)) := by
  dsimp only [Gen.V, Gen.V0]
  simp only [Gen.hostOps0, Gen.hostOps0_1, Gen.hostOps0_2, List.flatten_cons, List.flatten_nil, List.append_nil, List.cons_append,
    List.nil_append]
  after_results_simp
  simp only [TRef.ofBuf_toBuf, toBuf_main_v5, ofBuf_main_v5, toBuf_main_v6, ofBuf_main_v6, toBuf_main_call0_v5, ofBuf_main_call0_v5, toBuf_main_call0_v4, ofBuf_main_call0_v4, toBuf_main_v7, ofBuf_main_v7]
  rfl

set_option maxRecDepth 65536 in
set_option maxHeartbeats 4000000 in
/-- Window 3's array: the second batch's rows read through the indices. -/
theorem V_taken1 (c : Dev nD) :
    (V m c main_v11 : S5x16x262144.Idx → Elt F .f32)
      = taken1 (m ((c : Thread nD τ).loc main_arg0)) (m ((c : Thread nD τ).loc main_arg1)) (m ((c : Thread nD τ).loc main_arg2)) := by
  dsimp only [Gen.V, Gen.V0]
  simp only [Gen.hostOps0, Gen.hostOps0_1, Gen.hostOps0_2, List.flatten_cons, List.flatten_nil, List.append_nil, List.cons_append,
    List.nil_append]
  after_results_simp
  simp only [TRef.ofBuf_toBuf, toBuf_main_v5, ofBuf_main_v5, toBuf_main_v6, ofBuf_main_v6, toBuf_main_call0_v5, ofBuf_main_call0_v5, toBuf_main_call0_v4, ofBuf_main_call0_v4, toBuf_main_v7, ofBuf_main_v7]
  rfl

end Cert.KernelIdeal.KHost

end
-- ==== Proof.HostBridge.lean ====
/-
  The kernel's four input arrays are the reference's stages.

  The kernel gathers the two batches' rows at once, stacked on a last axis of length two, through the index rows
  under a trailing unit axis; the reference gathers each batch's rows by itself. Index by index both read the same
  pixel: row `b` of the batch at the shifted index clamped into the row, where the shifted index is inside the row,
  and the fill word elsewhere — the shifted indices, and so the inside-the-row mask, being the same arrays.
-/
import proofs.«138854_j16561393893906_2_alg».proof.Proof.KHost
import proofs.«138854_j16561393893906_2_alg».proof.Proof.RefRun
import Idealize.ShloMosaic.Lib.Pipeline.Value
import Idealize.ShloMosaic.Lib.ValueIdx

set_option maxRecDepth 16384

noncomputable section

namespace Cert.HostBridge

open Idealize.ShloMosaic Idealize.ShloMosaic.ValueIdx

variable {F : FTy → Type} [FloatOps F]

/-! ## Integer operations at an index (definitional) -/

theorem cmpi_apply {s : Shape} {w : Nat} (p : CmpIPredicate) (x y : IVec s w) (i : s.Idx) : cmpi p x y i = IntOp.cmpi p (x i) (y i) := rfl
theorem addi_apply {s : Shape} {w : Nat} (x y : IVec s w) (i : s.Idx) : addi x y i = IntOp.addi (x i) (y i) := rfl

/-! ## The two gathers at an index -/

/-- The reference's gather of a batch's rows at `(r, b, n)`: row `b` at the start index clamped into the row. -/
theorem gather_rows_apply {α : Type} (x : Cert.ReferenceIdeal.S16x262144.Idx → α) (idx : IVec Cert.ReferenceIdeal.S5x16x262144x1 32) (r : Fin 5) (b : Fin 16) (n : Fin 262144) :
    Host.gather Cert.ReferenceIdeal.gather_S16x262144_S5x16x262144x1_S5x16x262144_n_1_0_1_1_3_11 x idx (ix3 r b n)
      = x (ix2 b ⟨min (idx (ix4 r b n (0 : Fin 1))).toInt.toNat 262143, by omega⟩) := by
  unfold Host.gather
  congr 1
  funext a
  apply Fin.ext
  have hb0 : (0 : Fin 2) ∈ Cert.ReferenceIdeal.gather_S16x262144_S5x16x262144x1_S5x16x262144_n_1_0_1_1_3_11.operandBatchingDims := List.mem_singleton.mpr rfl
  have hm1 : (1 : Fin 2) ∈ Cert.ReferenceIdeal.gather_S16x262144_S5x16x262144x1_S5x16x262144_n_1_0_1_1_3_11.startIndexMap := List.mem_singleton.mpr rfl
  match a with
  | ⟨0, _⟩ =>
    show Cert.ReferenceIdeal.gather_S16x262144_S5x16x262144x1_S5x16x262144_n_1_0_1_1_3_11.start (ix3 r b n) idx 0 + Cert.ReferenceIdeal.gather_S16x262144_S5x16x262144x1_S5x16x262144_n_1_0_1_1_3_11.batchCoord (ix3 r b n) 0 + Cert.ReferenceIdeal.gather_S16x262144_S5x16x262144x1_S5x16x262144_n_1_0_1_1_3_11.offCoord (ix3 r b n) 0 = b.val
    rw [GatherDims.start_batching _ _ _ _ hb0,
      GatherDims.offCoord_eq_zero _ _ _ (fun h => ((GatherDims.mem_sKept _ _).mp h).2 hb0)]
    simp only [Nat.zero_add, Nat.add_zero]
    unfold GatherDims.batchCoord
    rw [dif_pos hb0]
    rfl
  | ⟨1, _⟩ =>
    show Cert.ReferenceIdeal.gather_S16x262144_S5x16x262144x1_S5x16x262144_n_1_0_1_1_3_11.start (ix3 r b n) idx 1 + Cert.ReferenceIdeal.gather_S16x262144_S5x16x262144x1_S5x16x262144_n_1_0_1_1_3_11.batchCoord (ix3 r b n) 1 + Cert.ReferenceIdeal.gather_S16x262144_S5x16x262144x1_S5x16x262144_n_1_0_1_1_3_11.offCoord (ix3 r b n) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos hm1]
    have hsi : Cert.ReferenceIdeal.gather_S16x262144_S5x16x262144x1_S5x16x262144_n_1_0_1_1_3_11.siIdx (ix3 r b n) ⟨List.idxOf (1 : Fin 2) Cert.ReferenceIdeal.gather_S16x262144_S5x16x262144x1_S5x16x262144_n_1_0_1_1_3_11.startIndexMap,
        List.idxOf_lt_length_iff.2 hm1⟩ = ix4 r b n (0 : Fin 1) := by
      funext c; refine Fin.ext ?_
      match c with
      | ⟨0, _⟩ => rfl
      | ⟨1, _⟩ => rfl
      | ⟨2, _⟩ => rfl
      | ⟨3, _⟩ => rfl
    rw [hsi]
    rfl

/-- The kernel's gather of the stacked rows at `(r, b, n, c)`: row `b`, the clamped start index, component `c`. -/
theorem gather_pair_apply {α : Type} (x : Cert.KernelIdeal.S16x262144x2.Idx → α) (idx : IVec Cert.KernelIdeal.S5x16x262144x1 32) (r : Fin 5) (b : Fin 16) (n : Fin 262144) (c : Fin 2) :
    Host.gather Cert.KernelIdeal.gather_S16x262144x2_S5x16x262144x1_S5x16x262144x2_3_1_0_1_1_3_112 x idx (ix4 r b n c)
      = x (ix3 b ⟨min (idx (ix4 r b n (0 : Fin 1))).toInt.toNat 262143, by omega⟩ c) := by
  unfold Host.gather
  congr 1
  funext a
  apply Fin.ext
  have hb0 : (0 : Fin 3) ∈ Cert.KernelIdeal.gather_S16x262144x2_S5x16x262144x1_S5x16x262144x2_3_1_0_1_1_3_112.operandBatchingDims := List.mem_singleton.mpr rfl
  have hm1 : (1 : Fin 3) ∈ Cert.KernelIdeal.gather_S16x262144x2_S5x16x262144x1_S5x16x262144x2_3_1_0_1_1_3_112.startIndexMap := List.mem_singleton.mpr rfl
  have hk2 : (2 : Fin 3) ∈ Cert.KernelIdeal.gather_S16x262144x2_S5x16x262144x1_S5x16x262144x2_3_1_0_1_1_3_112.sKept := (GatherDims.mem_sKept _ _).mpr ⟨by decide, by decide⟩
  match a with
  | ⟨0, _⟩ =>
    show Cert.KernelIdeal.gather_S16x262144x2_S5x16x262144x1_S5x16x262144x2_3_1_0_1_1_3_112.start (ix4 r b n c) idx 0 + Cert.KernelIdeal.gather_S16x262144x2_S5x16x262144x1_S5x16x262144x2_3_1_0_1_1_3_112.batchCoord (ix4 r b n c) 0 + Cert.KernelIdeal.gather_S16x262144x2_S5x16x262144x1_S5x16x262144x2_3_1_0_1_1_3_112.offCoord (ix4 r b n c) 0 = b.val
    rw [GatherDims.start_batching _ _ _ _ hb0,
      GatherDims.offCoord_eq_zero _ _ _ (fun h => ((GatherDims.mem_sKept _ _).mp h).2 hb0)]
    simp only [Nat.zero_add, Nat.add_zero]
    unfold GatherDims.batchCoord
    rw [dif_pos hb0]
    rfl
  | ⟨1, _⟩ =>
    show Cert.KernelIdeal.gather_S16x262144x2_S5x16x262144x1_S5x16x262144x2_3_1_0_1_1_3_112.start (ix4 r b n c) idx 1 + Cert.KernelIdeal.gather_S16x262144x2_S5x16x262144x1_S5x16x262144x2_3_1_0_1_1_3_112.batchCoord (ix4 r b n c) 1 + Cert.KernelIdeal.gather_S16x262144x2_S5x16x262144x1_S5x16x262144x2_3_1_0_1_1_3_112.offCoord (ix4 r b n c) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos hm1]
    have hsi : Cert.KernelIdeal.gather_S16x262144x2_S5x16x262144x1_S5x16x262144x2_3_1_0_1_1_3_112.siIdx (ix4 r b n c) ⟨List.idxOf (1 : Fin 3) Cert.KernelIdeal.gather_S16x262144x2_S5x16x262144x1_S5x16x262144x2_3_1_0_1_1_3_112.startIndexMap,
        List.idxOf_lt_length_iff.2 hm1⟩ = ix4 r b n (0 : Fin 1) := by
      funext d; refine Fin.ext ?_
      match d with
      | ⟨0, _⟩ => rfl
      | ⟨1, _⟩ => rfl
      | ⟨2, _⟩ => rfl
      | ⟨3, _⟩ => rfl
    rw [hsi]
    rfl
  | ⟨2, _⟩ =>
    show Cert.KernelIdeal.gather_S16x262144x2_S5x16x262144x1_S5x16x262144x2_3_1_0_1_1_3_112.start (ix4 r b n c) idx 2 + Cert.KernelIdeal.gather_S16x262144x2_S5x16x262144x1_S5x16x262144x2_3_1_0_1_1_3_112.batchCoord (ix4 r b n c) 2 + Cert.KernelIdeal.gather_S16x262144x2_S5x16x262144x1_S5x16x262144x2_3_1_0_1_1_3_112.offCoord (ix4 r b n c) 2 = c.val
    rw [GatherDims.batchCoord_eq_zero _ _ _ (by decide)]
    unfold GatherDims.start
    rw [dif_neg (by decide)]
    simp only [Nat.zero_add, Nat.add_zero]
    unfold GatherDims.offCoord
    rw [dif_pos hk2]
    rfl

/-! ## The stages agree -/

/-- A batch's rows: one reshape on both sides. -/
theorem rows_eq (x : (⟨Cert.KernelIdeal.S16x1x512x512, .f32⟩ : BufTy).Contents (Elt F)) : Cert.KernelIdeal.KHost.rows x = Cert.ReferenceIdeal.RefRun.rows x := rfl

/-- The shifted indices: the kernel shifts under the unit axis, the reference adds the unit axis afterwards. -/
theorem starts_eq (p : (⟨Cert.KernelIdeal.S5x16x262144, .i32⟩ : BufTy).Contents (Elt F)) : Cert.KernelIdeal.KHost.starts (F := F) p = Cert.ReferenceIdeal.RefRun.starts (F := F) p := by
  funext i
  obtain ⟨r, b, n, z, rfl⟩ : ∃ (r : Fin 5) (b : Fin 16) (n : Fin 262144) (z : Fin 1), i = ix4 r b n z :=
    ⟨i 0, i 1, i 2, i 3, eq_ix4 i⟩
  have hz := z.isLt
  unfold Cert.KernelIdeal.KHost.starts Cert.ReferenceIdeal.RefRun.starts
  refine Eq.trans ?_ (shapeCast_apply (s := Cert.ReferenceIdeal.S5x16x262144) _ Cert.ReferenceIdeal.Gen.shapeCasts_S5x16x262144_S5x16x262144x1 (ix4 r b n z) (ix3 r b n)
    (by rw [Shape.rowMajor_val_three, Shape.rowMajor_val_four]
        show (r.val * 16 + b.val) * 262144 + n.val = ((r.val * 16 + b.val) * 262144 + n.val) * 1 + z.val
        omega)).symm
  simp only [select_apply, cmpi_apply, addi_apply]
  rw [broadcastInDim_apply (s := Cert.KernelIdeal.S5x16x262144) ![0, 1, 2] Cert.KernelIdeal.Gen.bcast_S5x16x262144_S5x16x262144x1_0_1_2 p (ix4 r b n z) (ix3 r b n)
    (fun a => by
      match a with
      | ⟨0, _⟩ => show r.val = if (5 : Nat) = 1 then 0 else r.val; rw [if_neg (by decide)]
      | ⟨1, _⟩ => show b.val = if (16 : Nat) = 1 then 0 else b.val; rw [if_neg (by decide)]
      | ⟨2, _⟩ => show n.val = if (262144 : Nat) = 1 then 0 else n.val; rw [if_neg (by decide)])]
  rfl

/-- So the inside-the-row masks are one array. -/
theorem inRow_eq (p : (⟨Cert.KernelIdeal.S5x16x262144, .i32⟩ : BufTy).Contents (Elt F)) : Cert.KernelIdeal.KHost.inRow (F := F) p = Cert.ReferenceIdeal.RefRun.inRow (F := F) p := by
  unfold Cert.KernelIdeal.KHost.inRow Cert.ReferenceIdeal.RefRun.inRow
  rw [starts_eq]

/-- The kernel's gathered array 0: the first batch's rows read through the indices, as the reference reads them. -/
theorem taken0_eq (x0 x1 : (⟨Cert.KernelIdeal.S16x1x512x512, .f32⟩ : BufTy).Contents (Elt F)) (p : (⟨Cert.KernelIdeal.S5x16x262144, .i32⟩ : BufTy).Contents (Elt F)) :
    Cert.KernelIdeal.KHost.taken0 x0 x1 p = Cert.ReferenceIdeal.RefRun.taken (Cert.ReferenceIdeal.RefRun.lead (Cert.ReferenceIdeal.RefRun.rows x0)) p := by
  funext i
  obtain ⟨r, b, n, rfl⟩ : ∃ (r : Fin 5) (b : Fin 16) (n : Fin 262144), i = ix3 r b n := ⟨i 0, i 1, i 2, eq_ix3 i⟩
  -- the kernel's side: drop the unit axis, take component 0, open the select and the gather
  unfold Cert.KernelIdeal.KHost.taken0
  rw [shapeCast_apply (s := Cert.KernelIdeal.S5x16x262144x1) _ Cert.KernelIdeal.Gen.shapeCasts_S5x16x262144x1_S5x16x262144 (ix3 r b n) (ix4 r b n (0 : Fin 1))
    (by rw [Shape.rowMajor_val_four, Shape.rowMajor_val_three]
        show ((r.val * 16 + b.val) * 262144 + n.val) * 1 + 0 = (r.val * 16 + b.val) * 262144 + n.val
        omega)]
  rw [extractStridedSlice_apply (s := Cert.KernelIdeal.S5x16x262144x2) ![0, 0, 0, 0] _ Cert.KernelIdeal.Gen.slices_S5x16x262144x2_S5x16x262144x1_0_0_0_0
    (ix4 r b n (0 : Fin 1)) (ix4 r b n (0 : Fin 2))
    (fun a => by
      match a with
      | ⟨0, _⟩ => show r.val = 0 + r.val; omega
      | ⟨1, _⟩ => show b.val = 0 + b.val; omega
      | ⟨2, _⟩ => show n.val = 0 + n.val; omega
      | ⟨3, _⟩ => rfl)]
  unfold Cert.KernelIdeal.KHost.takenPair
  rw [select_apply, gather_pair_apply]
  rw [broadcastInDim_apply (s := Cert.KernelIdeal.S5x16x262144) ![0, 1, 2] Cert.KernelIdeal.Gen.bcast_S5x16x262144_S5x16x262144x2_0_1_2 (Cert.KernelIdeal.KHost.inRow p)
    (ix4 r b n (0 : Fin 2)) (ix3 r b n)
    (fun a => by
      match a with
      | ⟨0, _⟩ => show r.val = if (5 : Nat) = 1 then 0 else r.val; rw [if_neg (by decide)]
      | ⟨1, _⟩ => show b.val = if (16 : Nat) = 1 then 0 else b.val; rw [if_neg (by decide)]
      | ⟨2, _⟩ => show n.val = if (262144 : Nat) = 1 then 0 else n.val; rw [if_neg (by decide)])]
  generalize hm : (⟨min (Cert.KernelIdeal.KHost.starts p (ix4 r b n (0 : Fin 1))).toInt.toNat 262143, by omega⟩ : Fin 262144) = mm
  rw [shapeCast_apply (s := Cert.KernelIdeal.S1x16x262144x2) _ Cert.KernelIdeal.Gen.shapeCasts_S1x16x262144x2_S16x262144x2 (ix3 b mm (0 : Fin 2)) (ix4 (0 : Fin 1) b mm (0 : Fin 2))
    (by rw [Shape.rowMajor_val_four, Shape.rowMajor_val_three]
        show (((0 : ℕ) * 16 + b.val) * 262144 + mm.val) * 2 + 0 = (b.val * 262144 + mm.val) * 2 + 0
        omega)]
  rw [broadcastInDim_apply (s := Cert.KernelIdeal.S16x262144x2) ![1, 2, 3] Cert.KernelIdeal.Gen.bcast_S16x262144x2_S1x16x262144x2_1_2_3 (Cert.KernelIdeal.KHost.stacked x0 x1)
    (ix4 (0 : Fin 1) b mm (0 : Fin 2)) (ix3 b mm (0 : Fin 2))
    (fun a => by
      match a with
      | ⟨0, _⟩ => show b.val = if (16 : Nat) = 1 then 0 else b.val; rw [if_neg (by decide)]
      | ⟨1, _⟩ => show mm.val = if (262144 : Nat) = 1 then 0 else mm.val; rw [if_neg (by decide)]
      | ⟨2, _⟩ => show (0 : ℕ) = if (2 : Nat) = 1 then 0 else 0; rw [if_neg (by decide)])]
  unfold Cert.KernelIdeal.KHost.stacked
  rw [concatenate_pair_apply_left (t := Cert.KernelIdeal.S16x262144x2) (s₁ := Cert.KernelIdeal.S16x262144x1) (s₂ := Cert.KernelIdeal.S16x262144x1) (2 : Fin 3) _ _ Cert.KernelIdeal.Gen.concatenates_S16x262144x1_S16x262144x1_S16x262144x2_d2 (ix3 b mm (0 : Fin 2)) rfl (ix3 b mm (0 : Fin 1))
    (fun a => by
      match a with
      | ⟨0, _⟩ => rfl
      | ⟨1, _⟩ => rfl
      | ⟨2, _⟩ => rfl)]
  rw [broadcastInDim_apply (s := Cert.KernelIdeal.S16x262144) ![0, 1] Cert.KernelIdeal.Gen.bcast_S16x262144_S16x262144x1_0_1 (Cert.KernelIdeal.KHost.rows x0) (ix3 b mm (0 : Fin 1)) (ix2 b mm)
    (fun a => by
      match a with
      | ⟨0, _⟩ => show b.val = if (16 : Nat) = 1 then 0 else b.val; rw [if_neg (by decide)]
      | ⟨1, _⟩ => show mm.val = if (262144 : Nat) = 1 then 0 else mm.val; rw [if_neg (by decide)])]
  -- the reference's side: open the select and the gather, drop the leading unit axis
  unfold Cert.ReferenceIdeal.RefRun.taken
  rw [select_apply, gather_rows_apply, ← starts_eq, hm]
  rw [shapeCast_apply (s := Cert.ReferenceIdeal.S1x16x262144) _ Cert.ReferenceIdeal.Gen.shapeCasts_S1x16x262144_S16x262144 (ix2 b mm) (ix3 (0 : Fin 1) b mm)
    (by rw [Shape.rowMajor_val_three, Shape.rowMajor_val_two]
        show ((0 : ℕ) * 16 + b.val) * 262144 + mm.val = b.val * 262144 + mm.val
        omega)]
  unfold Cert.ReferenceIdeal.RefRun.lead
  rw [broadcastInDim_apply (s := Cert.ReferenceIdeal.S16x262144) ![1, 2] Cert.ReferenceIdeal.Gen.bcast_S16x262144_S1x16x262144_1_2 (Cert.ReferenceIdeal.RefRun.rows x0) (ix3 (0 : Fin 1) b mm) (ix2 b mm)
    (fun a => by
      match a with
      | ⟨0, _⟩ => show b.val = if (16 : Nat) = 1 then 0 else b.val; rw [if_neg (by decide)]
      | ⟨1, _⟩ => show mm.val = if (262144 : Nat) = 1 then 0 else mm.val; rw [if_neg (by decide)])]
  rw [inRow_eq, rows_eq]
  rfl

/-- The kernel's gathered array 1: the second batch's rows read through the indices, as the reference reads them. -/
theorem taken1_eq (x0 x1 : (⟨Cert.KernelIdeal.S16x1x512x512, .f32⟩ : BufTy).Contents (Elt F)) (p : (⟨Cert.KernelIdeal.S5x16x262144, .i32⟩ : BufTy).Contents (Elt F)) :
    Cert.KernelIdeal.KHost.taken1 x0 x1 p = Cert.ReferenceIdeal.RefRun.taken (Cert.ReferenceIdeal.RefRun.lead (Cert.ReferenceIdeal.RefRun.rows x1)) p := by
  funext i
  obtain ⟨r, b, n, rfl⟩ : ∃ (r : Fin 5) (b : Fin 16) (n : Fin 262144), i = ix3 r b n := ⟨i 0, i 1, i 2, eq_ix3 i⟩
  -- the kernel's side: drop the unit axis, take component 1, open the select and the gather
  unfold Cert.KernelIdeal.KHost.taken1
  rw [shapeCast_apply (s := Cert.KernelIdeal.S5x16x262144x1) _ Cert.KernelIdeal.Gen.shapeCasts_S5x16x262144x1_S5x16x262144 (ix3 r b n) (ix4 r b n (0 : Fin 1))
    (by rw [Shape.rowMajor_val_four, Shape.rowMajor_val_three]
        show ((r.val * 16 + b.val) * 262144 + n.val) * 1 + 0 = (r.val * 16 + b.val) * 262144 + n.val
        omega)]
  rw [extractStridedSlice_apply (s := Cert.KernelIdeal.S5x16x262144x2) ![0, 0, 0, 1] _ Cert.KernelIdeal.Gen.slices_S5x16x262144x2_S5x16x262144x1_0_0_0_1
    (ix4 r b n (0 : Fin 1)) (ix4 r b n (1 : Fin 2))
    (fun a => by
      match a with
      | ⟨0, _⟩ => show r.val = 0 + r.val; omega
      | ⟨1, _⟩ => show b.val = 0 + b.val; omega
      | ⟨2, _⟩ => show n.val = 0 + n.val; omega
      | ⟨3, _⟩ => rfl)]
  unfold Cert.KernelIdeal.KHost.takenPair
  rw [select_apply, gather_pair_apply]
  rw [broadcastInDim_apply (s := Cert.KernelIdeal.S5x16x262144) ![0, 1, 2] Cert.KernelIdeal.Gen.bcast_S5x16x262144_S5x16x262144x2_0_1_2 (Cert.KernelIdeal.KHost.inRow p)
    (ix4 r b n (1 : Fin 2)) (ix3 r b n)
    (fun a => by
      match a with
      | ⟨0, _⟩ => show r.val = if (5 : Nat) = 1 then 0 else r.val; rw [if_neg (by decide)]
      | ⟨1, _⟩ => show b.val = if (16 : Nat) = 1 then 0 else b.val; rw [if_neg (by decide)]
      | ⟨2, _⟩ => show n.val = if (262144 : Nat) = 1 then 0 else n.val; rw [if_neg (by decide)])]
  generalize hm : (⟨min (Cert.KernelIdeal.KHost.starts p (ix4 r b n (0 : Fin 1))).toInt.toNat 262143, by omega⟩ : Fin 262144) = mm
  rw [shapeCast_apply (s := Cert.KernelIdeal.S1x16x262144x2) _ Cert.KernelIdeal.Gen.shapeCasts_S1x16x262144x2_S16x262144x2 (ix3 b mm (1 : Fin 2)) (ix4 (0 : Fin 1) b mm (1 : Fin 2))
    (by rw [Shape.rowMajor_val_four, Shape.rowMajor_val_three]
        show (((0 : ℕ) * 16 + b.val) * 262144 + mm.val) * 2 + 1 = (b.val * 262144 + mm.val) * 2 + 1
        omega)]
  rw [broadcastInDim_apply (s := Cert.KernelIdeal.S16x262144x2) ![1, 2, 3] Cert.KernelIdeal.Gen.bcast_S16x262144x2_S1x16x262144x2_1_2_3 (Cert.KernelIdeal.KHost.stacked x0 x1)
    (ix4 (0 : Fin 1) b mm (1 : Fin 2)) (ix3 b mm (1 : Fin 2))
    (fun a => by
      match a with
      | ⟨0, _⟩ => show b.val = if (16 : Nat) = 1 then 0 else b.val; rw [if_neg (by decide)]
      | ⟨1, _⟩ => show mm.val = if (262144 : Nat) = 1 then 0 else mm.val; rw [if_neg (by decide)]
      | ⟨2, _⟩ => show (1 : ℕ) = if (2 : Nat) = 1 then 0 else 1; rw [if_neg (by decide)])]
  unfold Cert.KernelIdeal.KHost.stacked
  rw [concatenate_pair_apply_right (t := Cert.KernelIdeal.S16x262144x2) (s₁ := Cert.KernelIdeal.S16x262144x1) (s₂ := Cert.KernelIdeal.S16x262144x1) (2 : Fin 3) _ _ Cert.KernelIdeal.Gen.concatenates_S16x262144x1_S16x262144x1_S16x262144x2_d2 (ix3 b mm (1 : Fin 2)) rfl rfl (ix3 b mm (0 : Fin 1))
    (fun a ha => by
      match a, ha with
      | ⟨0, _⟩, _ => rfl
      | ⟨1, _⟩, _ => rfl
      | ⟨2, _⟩, ha => exact absurd rfl ha)
    rfl]
  rw [broadcastInDim_apply (s := Cert.KernelIdeal.S16x262144) ![0, 1] Cert.KernelIdeal.Gen.bcast_S16x262144_S16x262144x1_0_1 (Cert.KernelIdeal.KHost.rows x1) (ix3 b mm (0 : Fin 1)) (ix2 b mm)
    (fun a => by
      match a with
      | ⟨0, _⟩ => show b.val = if (16 : Nat) = 1 then 0 else b.val; rw [if_neg (by decide)]
      | ⟨1, _⟩ => show mm.val = if (262144 : Nat) = 1 then 0 else mm.val; rw [if_neg (by decide)])]
  -- the reference's side: open the select and the gather, drop the leading unit axis
  unfold Cert.ReferenceIdeal.RefRun.taken
  rw [select_apply, gather_rows_apply, ← starts_eq, hm]
  rw [shapeCast_apply (s := Cert.ReferenceIdeal.S1x16x262144) _ Cert.ReferenceIdeal.Gen.shapeCasts_S1x16x262144_S16x262144 (ix2 b mm) (ix3 (0 : Fin 1) b mm)
    (by rw [Shape.rowMajor_val_three, Shape.rowMajor_val_two]
        show ((0 : ℕ) * 16 + b.val) * 262144 + mm.val = b.val * 262144 + mm.val
        omega)]
  unfold Cert.ReferenceIdeal.RefRun.lead
  rw [broadcastInDim_apply (s := Cert.ReferenceIdeal.S16x262144) ![1, 2] Cert.ReferenceIdeal.Gen.bcast_S16x262144_S1x16x262144_1_2 (Cert.ReferenceIdeal.RefRun.rows x1) (ix3 (0 : Fin 1) b mm) (ix2 b mm)
    (fun a => by
      match a with
      | ⟨0, _⟩ => show b.val = if (16 : Nat) = 1 then 0 else b.val; rw [if_neg (by decide)]
      | ⟨1, _⟩ => show mm.val = if (262144 : Nat) = 1 then 0 else mm.val; rw [if_neg (by decide)])]
  rw [inRow_eq, rows_eq]
  rfl

end Cert.HostBridge

end
-- ==== Proof.KBody.lean ====
/-
  What the kernel's body leaves at one grid point, as a function of the point's four input blocks.

  At a grid point the body holds an 8 × 32768 tile of the prediction's rows and of the target's rows, and the
  five gathered copies of each. For every pixel of the tile it forms the two vectors of five differences, their
  guarded lengths, and the sum of the five gaps between the unit vectors; it adds the sum of these over the tile
  to a one-element accumulator, which it zeroes at the first tile of a batch half and copies to the output block
  at the last. `tileStep` is the accumulator's new content from its old one; the lemmas below read the three
  control cases' stores back as it.
-/
import proofs.«138854_j16561393893906_2_alg».proof.Proof.Gen.KernelIdeal.Frame
import Idealize.ShloMosaic.Lib.Pipeline.Value
import Idealize.ShloMosaic.Lib.Tactic

set_option maxRecDepth 16384

noncomputable section

namespace Cert.KernelIdeal.KBody

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after a tile: its content before plus the tile's sum of gaps (the body's last store's
    value over the values it read). -/
def tileStep (x0 x1 : Vec F S8x32768 .f32) (x2 x3 : Vec F S5x8x32768 .f32) (acc : Vec F S1x1 .f32) : Vec F S1x1 .f32 :=
  k0_pay1 (k0_pay4 x0) (k0_pay5 x1) (k0_pay9 (k0_pay4 x0) (k0_pay6 x0 (View.ld x2 (Rect.unit (s := S5x8x32768) ![0, 0, 0] S1x8x32768.size inb_S5x8x32768_S1x8x32768_0_0_0)) (View.ld x2 (Rect.unit (s := S5x8x32768) ![1, 0, 0] S1x8x32768.size inb_S5x8x32768_S1x8x32768_1_0_0))) (k0_pay8 x0 (View.ld x2 (Rect.unit (s := S5x8x32768) ![2, 0, 0] S1x8x32768.size inb_S5x8x32768_S1x8x32768_2_0_0))) (View.ld x2 (Rect.unit (s := S5x8x32768) ![3, 0, 0] S1x8x32768.size inb_S5x8x32768_S1x8x32768_3_0_0)) (View.ld x2 (Rect.unit (s := S5x8x32768) ![4, 0, 0] S1x8x32768.size inb_S5x8x32768_S1x8x32768_4_0_0))) (k0_pay10 (k0_pay5 x1) (k0_pay7 x1 (View.ld x3 (Rect.unit (s := S5x8x32768) ![0, 0, 0] S1x8x32768.size inb_S5x8x32768_S1x8x32768_0_0_0)) (View.ld x3 (Rect.unit (s := S5x8x32768) ![1, 0, 0] S1x8x32768.size inb_S5x8x32768_S1x8x32768_1_0_0))) (View.ld x3 (Rect.unit (s := S5x8x32768) ![2, 0, 0] S1x8x32768.size inb_S5x8x32768_S1x8x32768_2_0_0)) (View.ld x3 (Rect.unit (s := S5x8x32768) ![3, 0, 0] S1x8x32768.size inb_S5x8x32768_S1x8x32768_3_0_0)) (View.ld x3 (Rect.unit (s := S5x8x32768) ![4, 0, 0] S1x8x32768.size inb_S5x8x32768_S1x8x32768_4_0_0)))
    (k0_pay12 (k0_pay4 x0) (k0_pay5 x1) (k0_pay9 (k0_pay4 x0) (k0_pay6 x0 (View.ld x2 (Rect.unit (s := S5x8x32768) ![0, 0, 0] S1x8x32768.size inb_S5x8x32768_S1x8x32768_0_0_0)) (View.ld x2 (Rect.unit (s := S5x8x32768) ![1, 0, 0] S1x8x32768.size inb_S5x8x32768_S1x8x32768_1_0_0))) (k0_pay8 x0 (View.ld x2 (Rect.unit (s := S5x8x32768) ![2, 0, 0] S1x8x32768.size inb_S5x8x32768_S1x8x32768_2_0_0))) (View.ld x2 (Rect.unit (s := S5x8x32768) ![3, 0, 0] S1x8x32768.size inb_S5x8x32768_S1x8x32768_3_0_0)) (View.ld x2 (Rect.unit (s := S5x8x32768) ![4, 0, 0] S1x8x32768.size inb_S5x8x32768_S1x8x32768_4_0_0))) (k0_pay10 (k0_pay5 x1) (k0_pay7 x1 (View.ld x3 (Rect.unit (s := S5x8x32768) ![0, 0, 0] S1x8x32768.size inb_S5x8x32768_S1x8x32768_0_0_0)) (View.ld x3 (Rect.unit (s := S5x8x32768) ![1, 0, 0] S1x8x32768.size inb_S5x8x32768_S1x8x32768_1_0_0))) (View.ld x3 (Rect.unit (s := S5x8x32768) ![2, 0, 0] S1x8x32768.size inb_S5x8x32768_S1x8x32768_2_0_0)) (View.ld x3 (Rect.unit (s := S5x8x32768) ![3, 0, 0] S1x8x32768.size inb_S5x8x32768_S1x8x32768_3_0_0)) (View.ld x3 (Rect.unit (s := S5x8x32768) ![4, 0, 0] S1x8x32768.size inb_S5x8x32768_S1x8x32768_4_0_0))) k0_pay11
      (View.ld x2 (Rect.unit (s := S5x8x32768) ![0, 0, 0] S1x8x32768.size inb_S5x8x32768_S1x8x32768_0_0_0)) (View.ld x3 (Rect.unit (s := S5x8x32768) ![0, 0, 0] S1x8x32768.size inb_S5x8x32768_S1x8x32768_0_0_0)) (View.ld x2 (Rect.unit (s := S5x8x32768) ![1, 0, 0] S1x8x32768.size inb_S5x8x32768_S1x8x32768_1_0_0)) (View.ld x3 (Rect.unit (s := S5x8x32768) ![1, 0, 0] S1x8x32768.size inb_S5x8x32768_S1x8x32768_1_0_0)) (View.ld x2 (Rect.unit (s := S5x8x32768) ![2, 0, 0] S1x8x32768.size inb_S5x8x32768_S1x8x32768_2_0_0)) (View.ld x3 (Rect.unit (s := S5x8x32768) ![2, 0, 0] S1x8x32768.size inb_S5x8x32768_S1x8x32768_2_0_0)))
    (k0_pay13 (k0_pay5 x1) (View.ld x3 (Rect.unit (s := S5x8x32768) ![3, 0, 0] S1x8x32768.size inb_S5x8x32768_S1x8x32768_3_0_0)))
    (k0_pay14 (k0_pay4 x0) (k0_pay9 (k0_pay4 x0) (k0_pay6 x0 (View.ld x2 (Rect.unit (s := S5x8x32768) ![0, 0, 0] S1x8x32768.size inb_S5x8x32768_S1x8x32768_0_0_0)) (View.ld x2 (Rect.unit (s := S5x8x32768) ![1, 0, 0] S1x8x32768.size inb_S5x8x32768_S1x8x32768_1_0_0))) (k0_pay8 x0 (View.ld x2 (Rect.unit (s := S5x8x32768) ![2, 0, 0] S1x8x32768.size inb_S5x8x32768_S1x8x32768_2_0_0))) (View.ld x2 (Rect.unit (s := S5x8x32768) ![3, 0, 0] S1x8x32768.size inb_S5x8x32768_S1x8x32768_3_0_0)) (View.ld x2 (Rect.unit (s := S5x8x32768) ![4, 0, 0] S1x8x32768.size inb_S5x8x32768_S1x8x32768_4_0_0))) (View.ld x2 (Rect.unit (s := S5x8x32768) ![3, 0, 0] S1x8x32768.size inb_S5x8x32768_S1x8x32768_3_0_0)))
    (View.ld x2 (Rect.unit (s := S5x8x32768) ![4, 0, 0] S1x8x32768.size inb_S5x8x32768_S1x8x32768_4_0_0)) (View.ld x3 (Rect.unit (s := S5x8x32768) ![4, 0, 0] S1x8x32768.size inb_S5x8x32768_S1x8x32768_4_0_0)) acc

/-- A tile that is neither first nor last of its half: the accumulator steps. -/
theorem scratch_B (c : Dev nD) (i : grid0.Coords) (arg2 : Memref sig .tc .vmem S8x32768 .f32) (harg2 : arg2.IsWhole) (arg3 : Memref sig .tc .vmem S8x32768 .f32) (harg3 : arg3.IsWhole) (arg4 : Memref sig .tc .vmem S5x8x32768 .f32) (harg4 : arg4.IsWhole) (arg5 : Memref sig .tc .vmem S5x8x32768 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : ¬cond0_1 i) (x0 : Vec F S8x32768 .f32) (x1 : Vec F S8x32768 .f32) (x2 : Vec F S5x8x32768 .f32) (x3 : Vec F S5x8x32768 .f32) (xs0 : Vec F S1x1 .f32) :
    sout0_B_0 c i arg2 harg2 arg3 harg3 arg4 harg4 arg5 harg5 arg6 harg6 arg7 harg7 hc0 hc1 x0 x1 x2 x3 xs0 = tileStep x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero (S := S1x1) hz2]
  unfold tileStep
  simp only [View.readAt_eq_ld, harg2.read_unread, harg3.read_unread, harg4.read_unread, harg5.read_unread, harg7.read_unread,
    View.ld_unit_zero (S := S8x32768) hz2, View.ld_unit_zero (S := S1x1) hz2]

/-- The last tile of a half: the accumulator steps the same way, -/
theorem scratch_C (c : Dev nD) (i : grid0.Coords) (arg2 : Memref sig .tc .vmem S8x32768 .f32) (harg2 : arg2.IsWhole) (arg3 : Memref sig .tc .vmem S8x32768 .f32) (harg3 : arg3.IsWhole) (arg4 : Memref sig .tc .vmem S5x8x32768 .f32) (harg4 : arg4.IsWhole) (arg5 : Memref sig .tc .vmem S5x8x32768 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i) (x0 : Vec F S8x32768 .f32) (x1 : Vec F S8x32768 .f32) (x2 : Vec F S5x8x32768 .f32) (x3 : Vec F S5x8x32768 .f32) (xs0 : Vec F S1x1 .f32) :
    sout0_C_0 c i arg2 harg2 arg3 harg3 arg4 harg4 arg5 harg5 arg6 harg6 arg7 harg7 hc0 hc1 x0 x1 x2 x3 xs0 = tileStep x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1x1) hz2]
  unfold tileStep
  simp only [View.readAt_eq_ld, harg2.read_unread, harg3.read_unread, harg4.read_unread, harg5.read_unread, harg7.read_unread,
    View.ld_unit_zero (S := S8x32768) hz2, View.ld_unit_zero (S := S1x1) hz2]

/-- and the output block receives its new content. -/
theorem out_C (c : Dev nD) (i : grid0.Coords) (arg2 : Memref sig .tc .vmem S8x32768 .f32) (harg2 : arg2.IsWhole) (arg3 : Memref sig .tc .vmem S8x32768 .f32) (harg3 : arg3.IsWhole) (arg4 : Memref sig .tc .vmem S5x8x32768 .f32) (harg4 : arg4.IsWhole) (arg5 : Memref sig .tc .vmem S5x8x32768 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i) (x0 : Vec F S8x32768 .f32) (x1 : Vec F S8x32768 .f32) (x2 : Vec F S5x8x32768 .f32) (x3 : Vec F S5x8x32768 .f32) (xs0 : Vec F S1x1 .f32) :
    out0_C_4 c i arg2 harg2 arg3 harg3 arg4 harg4 arg5 harg5 arg6 harg6 arg7 harg7 hc0 hc1 x0 x1 x2 x3 xs0 = k0_pay2 (tileStep x0 x1 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1x1x1) hz3, View.readCov_unit_zero (S := S1x1) _ hz2]
  unfold tileStep
  simp only [View.readAt_eq_ld, harg2.read_unread, harg3.read_unread, harg4.read_unread, harg5.read_unread, harg7.read_unread,
    View.ld_unit_zero (S := S8x32768) hz2, View.ld_unit_zero (S := S1x1) hz2]

/-- The first tile of a half: the accumulator is zeroed, then steps. -/
theorem scratch_A (c : Dev nD) (i : grid0.Coords) (arg2 : Memref sig .tc .vmem S8x32768 .f32) (harg2 : arg2.IsWhole) (arg3 : Memref sig .tc .vmem S8x32768 .f32) (harg3 : arg3.IsWhole) (arg4 : Memref sig .tc .vmem S5x8x32768 .f32) (harg4 : arg4.IsWhole) (arg5 : Memref sig .tc .vmem S5x8x32768 .f32) (harg5 : arg5.IsWhole) (arg6 : Memref sig .tc .vmem S1x1x1 .f32) (harg6 : arg6.IsWhole) (arg7 : Memref sig .tc .vmem S1x1 .f32) (harg7 : arg7.IsWhole) (hc0 : cond0_0 i) (hc1 : ¬cond0_1 i) (x0 : Vec F S8x32768 .f32) (x1 : Vec F S8x32768 .f32) (x2 : Vec F S5x8x32768 .f32) (x3 : Vec F S5x8x32768 .f32) :
    sout0_A_0 c i arg2 harg2 arg3 harg3 arg4 harg4 arg5 harg5 arg6 harg6 arg7 harg7 hc0 hc1 x0 x1 x2 x3 = tileStep x0 x1 x2 x3 k0_pay3 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x1) hz2, View.readCov_unit_zero (S := S1x1) _ hz2]
  unfold tileStep
  simp only [View.readAt_eq_ld, harg2.read_unread, harg3.read_unread, harg4.read_unread, harg5.read_unread, harg7.read_unread,
    View.ld_unit_zero (S := S8x32768) hz2, View.ld_unit_zero (S := S1x1) hz2]

end Cert.KernelIdeal.KBody

end
-- ==== Proof.KAcc.lean ====
/-
  The accumulator across the grid, the block written back, and the kernel's result.

  The grid has two batch halves of eight tiles each, run one after another. The accumulator is zeroed at a half's
  first tile and stepped by every tile; after the half's last tile its content is copied to the half's entry of a
  two-entry output array, which the program then sums and divides twice. So the output array's entry for a half
  is the accumulator after the half's eighth tile.
-/
import proofs.«138854_j16561393893906_2_alg».proof.Proof.KBody
import Idealize.ShloMosaic.Lib.Pipeline.Value
import Idealize.ShloMosaic.Lib.StableHlo.Run

set_option maxRecDepth 16384

noncomputable section

namespace Cert.KernelIdeal.KAcc

open Cert.KernelIdeal Cert.KernelIdeal.Gen Cert.KernelIdeal.KBody Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The accumulator after point `n`: zeroed at the first tile of a half, stepped by the point's blocks. -/
def accAfter (c : Dev nD) : (n : ℕ) → n < cfg0.N → Vec F S1x1 .f32
  | 0, h => tileStep (iblk m c 0 ⟨0, h⟩) (iblk m c 1 ⟨0, h⟩) (iblk m c 2 ⟨0, h⟩) (iblk m c 3 ⟨0, h⟩) k0_pay3
  | n + 1, h => tileStep (iblk m c 0 ⟨n + 1, h⟩) (iblk m c 1 ⟨n + 1, h⟩) (iblk m c 2 ⟨n + 1, h⟩) (iblk m c 3 ⟨n + 1, h⟩)
      (if (n + 1) % 8 = 0 then k0_pay3 else accAfter c n (Nat.lt_of_succ_lt h))

/-- What the run leaves in the carried scratch after each point is that accumulator — by induction on the point. -/
theorem scratch_eq (c : Dev nD) : ∀ (n : ℕ) (h : n < cfg0.N), (outsAt0 m c n h).2 = accAfter m c n h
  | 0, h => by
    have h1 : ¬(⟨0, h⟩ : Fin cfg0.N).val % 8 = 7 := fun hh => absurd hh (by decide : ¬(0 % 8 = 7))
    have h0 : (⟨0, h⟩ : Fin cfg0.N).val % 8 = 0 := rfl
    exact (congrArg Prod.snd (outsAt0_A m c ⟨0, h⟩ h0 h1)).trans
      (scratch_A (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩) (iblk m c 3 ⟨0, h⟩))
  | n + 1, h => by
    have hN : cfg0.N = 16 := N_0
    by_cases h0 : (⟨n + 1, h⟩ : Fin cfg0.N).val % 8 = 0
    · have h1 : ¬(⟨n + 1, h⟩ : Fin cfg0.N).val % 8 = 7 := by dsimp only at h0 ⊢; omega
      refine (congrArg Prod.snd (outsAt0_A m c ⟨n + 1, h⟩ h0 h1)).trans ?_
      rw [accAfter, if_pos h0]
      exact scratch_A (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩)
    · by_cases h1 : (⟨n + 1, h⟩ : Fin cfg0.N).val % 8 = 7
      · refine (congrArg Prod.snd (outsAt0_C m c ⟨n + 1, h⟩ h0 h1)).trans ?_
        rw [accAfter, if_neg h0, ← scratch_eq c n (Nat.lt_of_succ_lt h)]
        exact scratch_C (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (outsAt0 m c n (Nat.lt_of_succ_lt h)).2
      · refine (congrArg Prod.snd (outsAt0_B m c ⟨n + 1, h⟩ h0 h1)).trans ?_
        rw [accAfter, if_neg h0, ← scratch_eq c n (Nat.lt_of_succ_lt h)]
        exact scratch_B (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (outsAt0 m c n (Nat.lt_of_succ_lt h)).2

/-- At a half's last tile the output block receives the accumulator. -/
theorem out_eq (c : Dev nD) (t : Fin cfg0.N) (h1 : t.val % 8 = 7) :
    (outsAt0 m c t.val t.isLt).1 = k0_pay2 (accAfter m c t.val t.isLt) := by
  have hN : cfg0.N = 16 := N_0
  have h0 : ¬t.val % 8 = 0 := by omega
  obtain ⟨n, hn⟩ := t
  cases n with
  | zero => exact absurd rfl h0
  | succ n =>
    refine (congrArg Prod.fst (outsAt0_C m c ⟨n + 1, hn⟩ h0 h1)).trans ?_
    show _ = k0_pay2 (accAfter m c (n + 1) hn)
    rw [accAfter, if_neg h0, ← scratch_eq m c n (Nat.lt_of_succ_lt hn)]
    exact out_C (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun hh => h0 ((hcond0_0 ⟨n + 1, hn⟩).mp hh)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2

/-! ## The accumulator's three steps as equations -/

theorem acc_zero (c : Dev nD) (h : 0 < cfg0.N) : accAfter m c 0 h = tileStep (iblk m c 0 ⟨0, h⟩) (iblk m c 1 ⟨0, h⟩) (iblk m c 2 ⟨0, h⟩) (iblk m c 3 ⟨0, h⟩) k0_pay3 := by
  rw [accAfter]

theorem acc_reset (c : Dev nD) (n : ℕ) (h : n + 1 < cfg0.N) (h0 : (n + 1) % 8 = 0) :
    accAfter m c (n + 1) h = tileStep (iblk m c 0 ⟨n + 1, h⟩) (iblk m c 1 ⟨n + 1, h⟩) (iblk m c 2 ⟨n + 1, h⟩) (iblk m c 3 ⟨n + 1, h⟩) k0_pay3 := by
  rw [accAfter, if_pos h0]

theorem acc_step (c : Dev nD) (n : ℕ) (h : n + 1 < cfg0.N) (h0 : ¬(n + 1) % 8 = 0) :
    accAfter m c (n + 1) h = tileStep (iblk m c 0 ⟨n + 1, h⟩) (iblk m c 1 ⟨n + 1, h⟩) (iblk m c 2 ⟨n + 1, h⟩) (iblk m c 3 ⟨n + 1, h⟩) (accAfter m c n (Nat.lt_of_succ_lt h)) := by
  rw [accAfter, if_neg h0]

end Cert.KernelIdeal.KAcc

end
-- ==== Proof.KFinal.lean ====
/-
  The kernel's result: the two halves' accumulators, summed and divided twice.

  The output array has one entry per batch half; the half's last tile (points 7 and 15 of the sixteen) writes the
  accumulator into it, and the two blocks are the whole array. After the region the program adds the two entries
  to zero, divides by 262144 · 5 and then by 16.
-/
import proofs.«138854_j16561393893906_2_alg».proof.Proof.KAcc
import Idealize.ShloMosaic.Lib.Pipeline.Value
import Idealize.ShloMosaic.Lib.StableHlo.Run
import Idealize.ShloMosaic.Lib.ValueIdx

set_option maxRecDepth 16384

noncomputable section

namespace Cert.KernelIdeal.KFinal

open Cert.KernelIdeal Cert.KernelIdeal.Gen Cert.KernelIdeal.KBody Cert.KernelIdeal.KAcc Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

theorem lt7 : 7 < cfg0.N := by rw [show cfg0.N = 16 from N_0]; decide
theorem lt15 : 15 < cfg0.N := by rw [show cfg0.N = 16 from N_0]; decide

/-- The one index of a [1, 1, 1] block. -/
def one3 : S1x1x1.Idx := ValueIdx.ix3 (0 : Fin 1) (0 : Fin 1) (0 : Fin 1)

theorem idx_one3 (y : S1x1x1.Idx) : y = one3 := by
  funext a
  apply Fin.ext
  have h : (y a).val < 1 := by
    have hlt := (y a).isLt
    match a, hlt with
    | ⟨0, _⟩, hlt => exact hlt
    | ⟨1, _⟩, hlt => exact hlt
    | ⟨2, _⟩, hlt => exact hlt
  have h' : (one3 a).val = 0 := by
    match a with
    | ⟨0, _⟩ => rfl
    | ⟨1, _⟩ => rfl
    | ⟨2, _⟩ => rfl
  omega

/-- The output array after the region: each half's entry is the accumulator after the half's last tile. -/
def halves (c : Dev nD) : Buf (Elt F) ((c : Thread nD τ).loc main_v12) := fun j =>
  if (j 0).val = 0 then k0_pay2 (accAfter m c 7 lt7) one3 else k0_pay2 (accAfter m c 15 lt15) one3

theorem accAfter_congr (c : Dev nD) {n n' : ℕ} (e : n = n') (h : n < cfg0.N) (h' : n' < cfg0.N) :
    accAfter m c n h = accAfter m c n' h' := by subst e; rfl

/-- What a half's last tile writes back is that half's entry. -/
theorem flushed_eq (c : Dev nD) (t : Fin cfg0.N) (hf : (cfg0.win 4).flush t = true) :
    (dats m 0 c).flushed 4 t = ((cfg0.win 4).blk t).view.read (Elt F) (halves m c) := by
  have hN : cfg0.N = 16 := N_0
  have h7 : t.val % 8 = 7 := (flush0_4 t).mp hf
  show (cfg0.win 4).cut (grid0.coords t) ((dats m 0 c).after 4 t) = _
  rw [after0_4, out_eq m c t h7]
  funext y
  rw [View.read_apply, idx_one3 y]
  have hlt := t.isLt
  rcases (by omega : t.val = 7 ∨ t.val = 15) with e | e
  · obtain rfl : t = t0_7 := Fin.ext e
    have e0 : ((((cfg0.win 4).blk t0_7).view.emb one3) 0).val = 0 := by decide +kernel
    show k0_pay2 (accAfter m c 7 _) one3 = halves m c _
    unfold halves
    rw [if_pos e0]
  · obtain rfl : t = t0_15 := Fin.ext e
    have e1 : ¬((((cfg0.win 4).blk t0_15).view.emb one3) 0).val = 0 := by decide +kernel
    show k0_pay2 (accAfter m c 15 _) one3 = halves m c _
    unfold halves
    rw [if_neg e1]

/-- The two blocks are the array: entry 0 is point 7's block, entry 1 point 15's. -/
theorem cover (i : S2x1x1.Idx) : ∃ t : Fin cfg0.N, (cfg0.win 4).flush t = true ∧ i ∈ ((cfg0.win 4).blk t).view.set := by
  have h0 : (i 0).val < 2 := (i 0).isLt
  have h1 : (i 1).val < 1 := (i 1).isLt
  have h2 : (i 2).val < 1 := (i 2).isLt
  by_cases e : (i 0).val = 0
  · refine ⟨t0_7, (flush0_4 t0_7).mpr rfl, ?_⟩
    show i ∈ ((View.whole main_v12).slice (win0_4.rect t0_7)).set
    rw [View.set_slice_whole, Rect.mem_set_unit]
    intro a
    match a with
    | ⟨0, _⟩ => show win0_4.index t0_7 0 * win0_4.size 0 ≤ (i 0 : Nat) ∧ (i 0 : Nat) < win0_4.index t0_7 0 * win0_4.size 0 + win0_4.xsize (grid0.coords t0_7) 0
                rw [show win0_4.index t0_7 0 * win0_4.size 0 = 0 from by decide +kernel, show win0_4.xsize (grid0.coords t0_7) 0 = 1 from by decide +kernel]; omega
    | ⟨1, _⟩ => show win0_4.index t0_7 1 * win0_4.size 1 ≤ (i 1 : Nat) ∧ (i 1 : Nat) < win0_4.index t0_7 1 * win0_4.size 1 + win0_4.xsize (grid0.coords t0_7) 1
                rw [show win0_4.index t0_7 1 * win0_4.size 1 = 0 from by decide +kernel, show win0_4.xsize (grid0.coords t0_7) 1 = 1 from by decide +kernel]; omega
    | ⟨2, _⟩ => show win0_4.index t0_7 2 * win0_4.size 2 ≤ (i 2 : Nat) ∧ (i 2 : Nat) < win0_4.index t0_7 2 * win0_4.size 2 + win0_4.xsize (grid0.coords t0_7) 2
                rw [show win0_4.index t0_7 2 * win0_4.size 2 = 0 from by decide +kernel, show win0_4.xsize (grid0.coords t0_7) 2 = 1 from by decide +kernel]; omega
  · refine ⟨t0_15, (flush0_4 t0_15).mpr rfl, ?_⟩
    show i ∈ ((View.whole main_v12).slice (win0_4.rect t0_15)).set
    rw [View.set_slice_whole, Rect.mem_set_unit]
    intro a
    match a with
    | ⟨0, _⟩ => show win0_4.index t0_15 0 * win0_4.size 0 ≤ (i 0 : Nat) ∧ (i 0 : Nat) < win0_4.index t0_15 0 * win0_4.size 0 + win0_4.xsize (grid0.coords t0_15) 0
                rw [show win0_4.index t0_15 0 * win0_4.size 0 = 1 from by decide +kernel, show win0_4.xsize (grid0.coords t0_15) 0 = 1 from by decide +kernel]; omega
    | ⟨1, _⟩ => show win0_4.index t0_15 1 * win0_4.size 1 ≤ (i 1 : Nat) ∧ (i 1 : Nat) < win0_4.index t0_15 1 * win0_4.size 1 + win0_4.xsize (grid0.coords t0_15) 1
                rw [show win0_4.index t0_15 1 * win0_4.size 1 = 0 from by decide +kernel, show win0_4.xsize (grid0.coords t0_15) 1 = 1 from by decide +kernel]; omega
    | ⟨2, _⟩ => show win0_4.index t0_15 2 * win0_4.size 2 ≤ (i 2 : Nat) ∧ (i 2 : Nat) < win0_4.index t0_15 2 * win0_4.size 2 + win0_4.xsize (grid0.coords t0_15) 2
                rw [show win0_4.index t0_15 2 * win0_4.size 2 = 0 from by decide +kernel, show win0_4.xsize (grid0.coords t0_15) 2 = 1 from by decide +kernel]; omega

/-- So the output array ends holding the two halves' accumulators. -/
theorem final (c : Dev nD) : (dats m 0 c).arrAt 4 cfg0.N = halves m c :=
  (dats m 0 c).arrAt_eq_of_cover 4 (halves m c) (flushed_eq m c) cover

/-- The lines after the region, as one function of the output array: its sum from zero, over 1310720, over 16. -/
def tail (h : (⟨S2x1x1, .f32⟩ : BufTy).Contents (Elt F)) : (⟨S_, .f32⟩ : BufTy).Contents (Elt F) :=
  Host.divf (Host.divf (Host.reduceAdd h (constant S_ .f32 0x00000000#32) reducesTo_S2x1x1_S_d0_1_2 h_S_)
    (constant S_ .f32 0x49A00000#32)) (constant S_ .f32 0x41800000#32)

/-- The result buffer after the lines that follow the region. -/
theorem result_eq (c : Dev nD) :
    Pipeline.afterTail₀ cfgs (dats m) 0 (V0 m) [hostOps1] c main_v15 = tail (halves m c) := by
  unfold Pipeline.afterTail₀
  show StableHlo.after hostOps1 _ (Proc.devRef .tc main_v15) = _
  after_results
  rw [(Pipeline.withArrays_arr spec0 launch0.win.arr_inj c _ _ 4).trans (final m c)]
  rfl

/-- THE KERNEL'S RUN: every weakly fair execution terminates with the result at `tail` of the two halves'
    accumulators and the arguments unchanged. -/
theorem run : θ_run defs (onTc (τ := τ) (main (F := F))) ⟨m, fun _ => 0, ρ⟩ (fun r => ∀ c : Dev nD,
      r.2.mem ((c.tc : Thread nD τ).loc main_v15) = tail (halves m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KFinal

end
-- ==== Proof.KValue.lean ====
/-
  One tile step at the extended reals: the accumulator gains the tile's sum, over its pixels and the five components,
  of the gaps between the two unit vectors.
-/
import proofs.«138854_j16561393893906_2_alg».proof.Proof.KBody
import proofs.«138854_j16561393893906_2_alg».proof.Proof.LossSpec
import Idealize.ShloMosaic.Lib.Pipeline.Value
import Idealize.ShloMosaic.Lib.ValueIdx
import Idealize.ShloMosaic.PureOps.Ideal.Laws

set_option maxRecDepth 16384

noncomputable section

namespace Cert.KernelIdeal.KValue

open Cert.KernelIdeal Cert.KernelIdeal.Gen Cert.KernelIdeal.KBody Idealize.ShloMosaic Idealize.ShloMosaic.ValueIdx Cert.LossSpec

/-- Pixel `(p, q)` of a tile: its vector of five differences, from the tile `x` of rows and the five gathered tiles `g`. -/
def tvec (x : Vec Ideal S8x32768 .f32) (g : Vec Ideal S5x8x32768 .f32) (p : Fin 8) (q : Fin 32768) : Fin 5 → EReal :=
  fun k => x (ix2 p q) - g (ix3 k p q)

/-- The `k`-th gathered tile, loaded as a [1, 8, 32768] sub-block and read without its unit axis, at pixel `(p, q)`. -/
theorem row_apply (g : Vec Ideal S5x8x32768 .f32) (k : Fin 5) (off : Fin 3 → Nat) (hoff : off = ![k.val, 0, 0])
    (inb : ∀ a, off a + S1x8x32768.size a ≤ S5x8x32768.size a) (p : Fin 8) (q : Fin 32768) :
    shapeCast (s := S1x8x32768) S8x32768 (View.ld g (Rect.unit (s := S5x8x32768) off S1x8x32768.size inb)) shapeCasts_S1x8x32768_S8x32768 (ix2 p q)
      = g (ix3 k p q) := by
  subst hoff
  rw [shapeCast_apply (s := S1x8x32768) _ shapeCasts_S1x8x32768_S8x32768 (ix2 p q) (ix3 (0 : Fin 1) p q)
    (by rw [Shape.rowMajor_val_three, Shape.rowMajor_val_two]
        show ((0 : ℕ) * 8 + p.val) * 32768 + q.val = p.val * 32768 + q.val
        omega)]
  show g ((Rect.unit (s := S5x8x32768) ![k.val, 0, 0] S1x8x32768.size inb).idx (ix3 (0 : Fin 1) p q)) = _
  congr 1
  funext a
  apply Fin.ext
  match a with
  | ⟨0, _⟩ => show k.val + 1 * 0 = k.val; omega
  | ⟨1, _⟩ => show 0 + 1 * p.val = p.val; omega
  | ⟨2, _⟩ => show 0 + 1 * q.val = q.val; omega

theorem row_0 (g : Vec Ideal S5x8x32768 .f32) (inb : ∀ a, (![0, 0, 0] : Fin 3 → Nat) a + S1x8x32768.size a ≤ S5x8x32768.size a) (p : Fin 8) (q : Fin 32768) :
    shapeCast (s := S1x8x32768) S8x32768 (View.ld g (Rect.unit (s := S5x8x32768) ![0, 0, 0] S1x8x32768.size inb)) shapeCasts_S1x8x32768_S8x32768 (ix2 p q)
      = g (ix3 (0 : Fin 5) p q) := row_apply g 0 _ rfl inb p q
theorem row_1 (g : Vec Ideal S5x8x32768 .f32) (inb : ∀ a, (![1, 0, 0] : Fin 3 → Nat) a + S1x8x32768.size a ≤ S5x8x32768.size a) (p : Fin 8) (q : Fin 32768) :
    shapeCast (s := S1x8x32768) S8x32768 (View.ld g (Rect.unit (s := S5x8x32768) ![1, 0, 0] S1x8x32768.size inb)) shapeCasts_S1x8x32768_S8x32768 (ix2 p q)
      = g (ix3 (1 : Fin 5) p q) := row_apply g 1 _ rfl inb p q
theorem row_2 (g : Vec Ideal S5x8x32768 .f32) (inb : ∀ a, (![2, 0, 0] : Fin 3 → Nat) a + S1x8x32768.size a ≤ S5x8x32768.size a) (p : Fin 8) (q : Fin 32768) :
    shapeCast (s := S1x8x32768) S8x32768 (View.ld g (Rect.unit (s := S5x8x32768) ![2, 0, 0] S1x8x32768.size inb)) shapeCasts_S1x8x32768_S8x32768 (ix2 p q)
      = g (ix3 (2 : Fin 5) p q) := row_apply g 2 _ rfl inb p q
theorem row_3 (g : Vec Ideal S5x8x32768 .f32) (inb : ∀ a, (![3, 0, 0] : Fin 3 → Nat) a + S1x8x32768.size a ≤ S5x8x32768.size a) (p : Fin 8) (q : Fin 32768) :
    shapeCast (s := S1x8x32768) S8x32768 (View.ld g (Rect.unit (s := S5x8x32768) ![3, 0, 0] S1x8x32768.size inb)) shapeCasts_S1x8x32768_S8x32768 (ix2 p q)
      = g (ix3 (3 : Fin 5) p q) := row_apply g 3 _ rfl inb p q
theorem row_4 (g : Vec Ideal S5x8x32768 .f32) (inb : ∀ a, (![4, 0, 0] : Fin 3 → Nat) a + S1x8x32768.size a ≤ S5x8x32768.size a) (p : Fin 8) (q : Fin 32768) :
    shapeCast (s := S1x8x32768) S8x32768 (View.ld g (Rect.unit (s := S5x8x32768) ![4, 0, 0] S1x8x32768.size inb)) shapeCasts_S1x8x32768_S8x32768 (ix2 p q)
      = g (ix3 (4 : Fin 5) p q) := row_apply g 4 _ rfl inb p q

/-- The body's two same-shape casts of its row tiles are the tiles. -/
theorem pay4_eq {F : FTy → Type} [FloatOps F] (x : Vec F S8x32768 .f32) : k0_pay4 x = x := shapeCast_self _ _
theorem pay5_eq {F : FTy → Type} [FloatOps F] (x : Vec F S8x32768 .f32) : k0_pay5 x = x := shapeCast_self _ _

/-- The prediction side's guarded length at a pixel. -/
theorem guard0_apply (x0 : Vec Ideal S8x32768 .f32) (x2 : Vec Ideal S5x8x32768 .f32) (p : Fin 8) (q : Fin 32768) :
    (k0_pay9 x0 (k0_pay6 x0 (View.ld x2 (Rect.unit (s := S5x8x32768) ![0, 0, 0] S1x8x32768.size inb_S5x8x32768_S1x8x32768_0_0_0)) (View.ld x2 (Rect.unit (s := S5x8x32768) ![1, 0, 0] S1x8x32768.size inb_S5x8x32768_S1x8x32768_1_0_0))) (k0_pay8 x0 (View.ld x2 (Rect.unit (s := S5x8x32768) ![2, 0, 0] S1x8x32768.size inb_S5x8x32768_S1x8x32768_2_0_0))) (View.ld x2 (Rect.unit (s := S5x8x32768) ![3, 0, 0] S1x8x32768.size inb_S5x8x32768_S1x8x32768_3_0_0)) (View.ld x2 (Rect.unit (s := S5x8x32768) ![4, 0, 0] S1x8x32768.size inb_S5x8x32768_S1x8x32768_4_0_0))) (ix2 p q) = guardOf (lenOf (tvec x0 x2 p q)) := by
  unfold k0_pay9 k0_pay6 k0_pay8
  simp only [pay4_eq, select_apply, cmpf_apply, sqrt_apply, absf_apply, divf_apply, addf_apply, mulf_apply, subf_apply, broadcast_apply]
  rw [row_0, row_1, row_2, row_3, row_4]
  unfold guardOf lenOf
  rw [← sum_sq_chain (tvec x0 x2 p q)]
  rfl

/-- The target side's guarded length at a pixel. -/
theorem guard1_apply (x1 : Vec Ideal S8x32768 .f32) (x3 : Vec Ideal S5x8x32768 .f32) (p : Fin 8) (q : Fin 32768) :
    (k0_pay10 x1 (k0_pay7 x1 (View.ld x3 (Rect.unit (s := S5x8x32768) ![0, 0, 0] S1x8x32768.size inb_S5x8x32768_S1x8x32768_0_0_0)) (View.ld x3 (Rect.unit (s := S5x8x32768) ![1, 0, 0] S1x8x32768.size inb_S5x8x32768_S1x8x32768_1_0_0))) (View.ld x3 (Rect.unit (s := S5x8x32768) ![2, 0, 0] S1x8x32768.size inb_S5x8x32768_S1x8x32768_2_0_0)) (View.ld x3 (Rect.unit (s := S5x8x32768) ![3, 0, 0] S1x8x32768.size inb_S5x8x32768_S1x8x32768_3_0_0)) (View.ld x3 (Rect.unit (s := S5x8x32768) ![4, 0, 0] S1x8x32768.size inb_S5x8x32768_S1x8x32768_4_0_0))) (ix2 p q) = guardOf (lenOf (tvec x1 x3 p q)) := by
  unfold k0_pay10 k0_pay7
  simp only [pay5_eq, select_apply, cmpf_apply, sqrt_apply, absf_apply, divf_apply, addf_apply, mulf_apply, subf_apply, broadcast_apply]
  rw [row_0, row_1, row_2, row_3, row_4]
  unfold guardOf lenOf
  rw [← sum_sq_chain (tvec x1 x3 p q)]
  rfl

/-- ONE TILE STEP: the accumulator's one entry gains the tile's sum of gaps. -/
theorem tileStep_apply (x0 x1 : Vec Ideal S8x32768 .f32) (x2 x3 : Vec Ideal S5x8x32768 .f32) (acc : Vec Ideal S1x1 .f32) (j : S1x1.Idx) :
    tileStep (F := Ideal) x0 x1 x2 x3 acc j
      = acc j + ∑ p : Fin 8, ∑ q : Fin 32768, ∑ k : Fin 5, gapAt (tvec x0 x2 p q) (tvec x1 x3 p q) k := by
  unfold tileStep
  simp only [pay4_eq, pay5_eq]
  unfold k0_pay1
  simp only [shapeCast_self, addf_apply, broadcast_apply]
  refine congrArg (fun z => acc j + z) ?_
  unfold extractAt
  rw [shapeCast_apply (s := S1) _ shapeCasts_S1_S1x1x1 _ (ix1 (0 : Fin 1))
    (by rw [Shape.rowMajor_val_one, Shape.rowMajor_val_three]; rfl)]
  have hone : ∀ b : Fin S1.rank, S1.size b = 1 := fun b => by fin_cases b; rfl
  refine (Ideal.multiReduction_add_total (s := S1x8x32768) (t := S1) (axes := [1, 2]) _ _ reduces_S1x8x32768_S1 hone _ _
    (ix1 (0 : Fin 1))).trans ?_
  rw [sum_idx3, Fin.sum_univ_one]
  refine Finset.sum_congr rfl fun p _ => Finset.sum_congr rfl fun q _ => ?_
  rw [shapeCast_apply (s := S8x32768) _ shapeCasts_S8x32768_S1x8x32768 (ix3 (0 : Fin 1) p q) (ix2 p q)
    (by rw [Shape.rowMajor_val_three, Shape.rowMajor_val_two]
        show p.val * 32768 + q.val = ((0 : ℕ) * 8 + p.val) * 32768 + q.val
        omega)]
  unfold k0_pay12 k0_pay13 k0_pay14 k0_pay11
  simp only [select_apply, cmpf_apply, sqrt_apply, absf_apply, divf_apply, addf_apply, mulf_apply, subf_apply, broadcast_apply]
  rw [guard0_apply, guard1_apply]
  rw [row_0, row_0, row_1, row_1, row_2, row_2, row_3, row_3, row_4, row_4]
  rw [← sum_gap_chain (gapAt (tvec x0 x2 p q) (tvec x1 x3 p q))]
  rfl

end Cert.KernelIdeal.KValue

end
-- ==== Proof.KSum.lean ====
/-
  The kernel's result as one sum over all pixels.

  The accumulator after a half's `k`-th tile is the sum of the tile sums so far; a tile sum is the sum, over the
  tile's 8 rows and 32768 pixels, of the pixel's gap read off the WHOLE arrays at row `8 · half + row` and pixel
  `32768 · tile + pixel`, because that is where a window's block sits in its array. So the two halves' entries add
  up to the sum over all rows and pixels, and the two divisions that follow are one division by the count.
-/
import proofs.«138854_j16561393893906_2_alg».proof.Proof.KFinal
import proofs.«138854_j16561393893906_2_alg».proof.Proof.KValue
import proofs.«138854_j16561393893906_2_alg».proof.Proof.LossSpec

set_option maxRecDepth 16384

noncomputable section

namespace Cert.KernelIdeal.KSum

open Cert.KernelIdeal Cert.KernelIdeal.Gen Cert.KernelIdeal.KBody Cert.KernelIdeal.KAcc Cert.KernelIdeal.KFinal Cert.KernelIdeal.KValue
open Idealize.ShloMosaic Idealize.ShloMosaic.ValueIdx Cert.LossSpec

variable (m : (ℓ : Loc nD τ sig) → Buf (Elt Ideal) ℓ)

/-- The sum of the gaps over one point's tile. -/
def tileSum (c : Dev nD) (t : Fin cfg0.N) : EReal :=
  ∑ p : Fin 8, ∑ q : Fin 32768, ∑ k : Fin 5,
    gapAt (tvec (iblk m c 0 t) (iblk m c 2 t) p q) (tvec (iblk m c 1 t) (iblk m c 3 t) p q) k

/-- The same at a point given by its number (zero past the grid, where it is never used). -/
def TS (c : Dev nD) (t : ℕ) : EReal := if h : t < cfg0.N then tileSum m c ⟨t, h⟩ else 0

theorem TS_eq (c : Dev nD) (t : ℕ) (h : t < cfg0.N) : TS m c t = tileSum m c ⟨t, h⟩ := by unfold TS; rw [dif_pos h]

/-- The zeroed accumulator holds zero. -/
theorem pay3_zero (j : S1x1.Idx) : (k0_pay3 (F := Ideal)) j = 0 := by
  unfold k0_pay3
  rw [shapeCast_self]
  exact Ideal.ofBits_zero_f32

/-! ## The accumulator as a sum of tile sums -/

/-- One step at a grid point: the accumulator gains the point's tile sum. -/
theorem step_sum (c : Dev nD) (t : Fin cfg0.N) (acc : Vec Ideal S1x1 .f32) (j : S1x1.Idx) :
    tileStep (iblk m c 0 t) (iblk m c 1 t) (iblk m c 2 t) (iblk m c 3 t) acc j = acc j + tileSum m c t :=
  tileStep_apply (iblk m c 0 t) (iblk m c 1 t) (iblk m c 2 t) (iblk m c 3 t) acc j

theorem acc_zero_val (c : Dev nD) (h : 0 < cfg0.N) (j : S1x1.Idx) : accAfter m c 0 h j = TS m c 0 := by
  have e1 : accAfter m c 0 h j = tileStep (iblk m c 0 ⟨0, h⟩) (iblk m c 1 ⟨0, h⟩) (iblk m c 2 ⟨0, h⟩) (iblk m c 3 ⟨0, h⟩) (k0_pay3 (F := Ideal)) j := congrFun (acc_zero m c h) j
  have e2 : tileStep (iblk m c 0 ⟨0, h⟩) (iblk m c 1 ⟨0, h⟩) (iblk m c 2 ⟨0, h⟩) (iblk m c 3 ⟨0, h⟩) (k0_pay3 (F := Ideal)) j = (k0_pay3 (F := Ideal)) j + tileSum m c ⟨0, h⟩ :=
    step_sum m c ⟨0, h⟩ (k0_pay3 (F := Ideal)) j
  have e3 : (k0_pay3 (F := Ideal)) j + tileSum m c ⟨0, h⟩ = TS m c 0 := by rw [pay3_zero, zero_add, TS_eq m c 0 h]
  exact (e1.trans e2).trans e3

theorem acc_reset_val (c : Dev nD) (n : ℕ) (h : n + 1 < cfg0.N) (h0 : (n + 1) % 8 = 0) (j : S1x1.Idx) :
    accAfter m c (n + 1) h j = TS m c (n + 1) := by
  have e1 : accAfter m c (n + 1) h j = tileStep (iblk m c 0 ⟨n + 1, h⟩) (iblk m c 1 ⟨n + 1, h⟩) (iblk m c 2 ⟨n + 1, h⟩) (iblk m c 3 ⟨n + 1, h⟩) (k0_pay3 (F := Ideal)) j := congrFun (acc_reset m c n h h0) j
  have e2 : tileStep (iblk m c 0 ⟨n + 1, h⟩) (iblk m c 1 ⟨n + 1, h⟩) (iblk m c 2 ⟨n + 1, h⟩) (iblk m c 3 ⟨n + 1, h⟩) (k0_pay3 (F := Ideal)) j = (k0_pay3 (F := Ideal)) j + tileSum m c ⟨n + 1, h⟩ :=
    step_sum m c ⟨n + 1, h⟩ (k0_pay3 (F := Ideal)) j
  have e3 : (k0_pay3 (F := Ideal)) j + tileSum m c ⟨n + 1, h⟩ = TS m c (n + 1) := by
    rw [pay3_zero, zero_add, TS_eq m c (n + 1) h]
  exact (e1.trans e2).trans e3

theorem acc_step_val (c : Dev nD) (n : ℕ) (h : n + 1 < cfg0.N) (h0 : ¬(n + 1) % 8 = 0) (j : S1x1.Idx) :
    accAfter m c (n + 1) h j = accAfter m c n (Nat.lt_of_succ_lt h) j + TS m c (n + 1) :=
  ((congrFun (acc_step m c n h h0) j).trans (step_sum m c ⟨n + 1, h⟩ (accAfter m c n (Nat.lt_of_succ_lt h)) j)).trans
    (by rw [TS_eq m c (n + 1) h])

/-- Within a half that starts at point `b`: after its `k`-th further tile the accumulator is the sum of the tile
    sums of points `b … b + k`. -/
theorem acc_run (c : Dev nD) (j : S1x1.Idx) (b : ℕ) (hb8 : b % 8 = 0) (hb : b < cfg0.N) (h0 : accAfter m c b hb j = TS m c b) :
    ∀ (k : ℕ) (hk : k < 8) (h : b + k < cfg0.N), accAfter m c (b + k) h j = ∑ s ∈ Finset.range (k + 1), TS m c (b + s)
  | 0, _, h => by rw [Finset.sum_range_one]; exact h0
  | k + 1, hk, h => by
    have hne : ¬(b + k + 1) % 8 = 0 := by omega
    rw [Finset.sum_range_succ, ← acc_run c j b hb8 hb h0 k (by omega) (Nat.lt_of_succ_lt h)]
    exact acc_step_val m c (b + k) h hne j

theorem lt0 : 0 < cfg0.N := by rw [show cfg0.N = 16 from N_0]; decide
theorem lt8 : 7 + 1 < cfg0.N := by rw [show cfg0.N = 16 from N_0]; decide

/-- The first half's last accumulator: the sum of the tile sums of points 0 … 7. -/
theorem half0 (c : Dev nD) (j : S1x1.Idx) : accAfter m c 7 lt7 j = ∑ s ∈ Finset.range 8, TS m c s :=
  (acc_run m c j 0 rfl lt0 (acc_zero_val m c lt0 j) 7 (by decide) (by rw [show cfg0.N = 16 from N_0]; decide)).trans
    (Finset.sum_congr rfl fun s _ => by rw [Nat.zero_add])

/-- The second half's: points 8 … 15. -/
theorem half1 (c : Dev nD) (j : S1x1.Idx) : accAfter m c 15 lt15 j = ∑ s ∈ Finset.range 8, TS m c (8 + s) :=
  acc_run m c j 8 rfl lt8 (acc_reset_val m c 7 lt8 rfl j) 7 (by decide) (by rw [show cfg0.N = 16 from N_0]; decide)

/-- The output block's one entry is the accumulator's. -/
theorem pay2_apply (v : Vec Ideal S1x1 .f32) : k0_pay2 v one3 = v (ix2 (0 : Fin 1) (0 : Fin 1)) := by
  unfold k0_pay2
  exact shapeCast_apply (s := S1x1) v shapeCasts_S1x1_S1x1x1 one3 (ix2 (0 : Fin 1) (0 : Fin 1))
    (by rw [Shape.rowMajor_val_two, Shape.rowMajor_val_three]; rfl)

/-- The output array's entry for a half, as an extended real. -/
def entry (c : Dev nD) (a : Fin 2) : EReal := halves m c (ix3 a (0 : Fin 1) (0 : Fin 1))

theorem entry0 (c : Dev nD) : entry m c 0 = ∑ s ∈ Finset.range 8, TS m c s :=
  ((if_pos rfl : halves m c (ix3 (0 : Fin 2) (0 : Fin 1) (0 : Fin 1)) = k0_pay2 (accAfter m c 7 lt7) one3).trans
    (pay2_apply _)).trans (half0 m c _)

theorem entry1 (c : Dev nD) : entry m c 1 = ∑ s ∈ Finset.range 8, TS m c (8 + s) :=
  ((if_neg (fun hh => absurd hh (by decide : ¬((1 : ℕ) = 0))) :
      halves m c (ix3 (1 : Fin 2) (0 : Fin 1) (0 : Fin 1)) = k0_pay2 (accAfter m c 15 lt15) one3).trans
    (pay2_apply _)).trans (half1 m c _)

/-! ## Where a window's block sits in its array -/

theorem idx0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem idx1 : ∀ t : Fin cfg0.N, win0_1.index t 0 = t.val / 8 ∧ win0_1.index t 1 = t.val % 8 :=
  (by decide +kernel : ∀ t : Fin grid0.N, win0_1.index t 0 = t.val / 8 ∧ win0_1.index t 1 = t.val % 8)
theorem idx2 : ∀ t : Fin cfg0.N, win0_2.index t 0 = 0 ∧ win0_2.index t 1 = t.val / 8 ∧ win0_2.index t 2 = t.val % 8 :=
  (by decide +kernel : ∀ t : Fin grid0.N, win0_2.index t 0 = 0 ∧ win0_2.index t 1 = t.val / 8 ∧ win0_2.index t 2 = t.val % 8)
theorem idx3 : ∀ t : Fin cfg0.N, win0_3.index t 0 = 0 ∧ win0_3.index t 1 = t.val / 8 ∧ win0_3.index t 2 = t.val % 8 :=
  (by decide +kernel : ∀ t : Fin grid0.N, win0_3.index t 0 = 0 ∧ win0_3.index t 1 = t.val / 8 ∧ win0_3.index t 2 = t.val % 8)

/-- Equal references hold equal contents when the region is entered. -/
theorem V_congr (c : Dev nD) {b b' : Ref sig .tc} (e : b = b') : HEq (V m c b) (V m c b') := by
  subst e
  rfl

theorem ref0 : Pipeline.arrRef spec0 (0 : Fin cfg0.W) = main_v0 := rfl

set_option maxRecDepth 400000 in
/-- Window 0 stages the buffer `main_v0`. -/
theorem V0_eq (c : Dev nD) : V m c (Pipeline.arrRef spec0 (0 : Fin cfg0.W)) = V m c main_v0 :=
  eq_of_heq (V_congr m c ref0)

theorem ref1 : Pipeline.arrRef spec0 (1 : Fin cfg0.W) = main_v1 := rfl

set_option maxRecDepth 400000 in
/-- Window 1 stages the buffer `main_v1`. -/
theorem V1_eq (c : Dev nD) : V m c (Pipeline.arrRef spec0 (1 : Fin cfg0.W)) = V m c main_v1 :=
  eq_of_heq (V_congr m c ref1)

theorem ref2 : Pipeline.arrRef spec0 (2 : Fin cfg0.W) = main_v9 := rfl

set_option maxRecDepth 400000 in
/-- Window 2 stages the buffer `main_v9`. -/
theorem V2_eq (c : Dev nD) : V m c (Pipeline.arrRef spec0 (2 : Fin cfg0.W)) = V m c main_v9 :=
  eq_of_heq (V_congr m c ref2)

theorem ref3 : Pipeline.arrRef spec0 (3 : Fin cfg0.W) = main_v11 := rfl

set_option maxRecDepth 400000 in
/-- Window 3 stages the buffer `main_v11`. -/
theorem V3_eq (c : Dev nD) : V m c (Pipeline.arrRef spec0 (3 : Fin cfg0.W)) = V m c main_v11 :=
  eq_of_heq (V_congr m c ref3)

/-- Window 0's block at a grid point is the piece of the window's array at row `8 · half + p`, pixel `32768 · tile + q`. -/
theorem blk0_window (c : Dev nD) (t : Fin cfg0.N) (p : Fin 8) (q : Fin 32768) (B : Fin 16) (N : Fin 262144)
    (hB : B.val = p.val + 8 * (t.val / 8)) (hN : N.val = q.val + 32768 * (t.val % 8)) :
    iblk m c 0 t (ix2 p q) = V m c (Pipeline.arrRef spec0 (0 : Fin cfg0.W)) (ix2 B N) := by
  have he : ((cfg0.win 0).blk t).view.emb (ix2 p q) = ix2 B N := by
    funext a
    apply Fin.ext
    match a with
    | ⟨0, _⟩ => show win0_0.index t 0 * 8 + 1 * p.val = B.val; rw [(idx0 t).1, hB]; omega
    | ⟨1, _⟩ => show win0_0.index t 1 * 32768 + 1 * q.val = N.val; rw [(idx0 t).2, hN]; omega
  unfold iblk
  generalize V m c (Pipeline.arrRef spec0 (0 : Fin cfg0.W)) = A
  rw [View.read_apply]
  rw [he]
  exact eq_of_heq (cast_heq _ _)

set_option maxRecDepth 400000 in
theorem blk0_apply (c : Dev nD) (t : Fin cfg0.N) (p : Fin 8) (q : Fin 32768) (B : Fin 16) (N : Fin 262144)
    (hB : B.val = p.val + 8 * (t.val / 8)) (hN : N.val = q.val + 32768 * (t.val % 8)) :
    iblk m c 0 t (ix2 p q) = V m c main_v0 (ix2 B N) :=
  (blk0_window m c t p q B N hB hN).trans (congrFun (V0_eq m c) (ix2 B N))

/-- Window 1's block at a grid point is the piece of the window's array at row `8 · half + p`, pixel `32768 · tile + q`. -/
theorem blk1_window (c : Dev nD) (t : Fin cfg0.N) (p : Fin 8) (q : Fin 32768) (B : Fin 16) (N : Fin 262144)
    (hB : B.val = p.val + 8 * (t.val / 8)) (hN : N.val = q.val + 32768 * (t.val % 8)) :
    iblk m c 1 t (ix2 p q) = V m c (Pipeline.arrRef spec0 (1 : Fin cfg0.W)) (ix2 B N) := by
  have he : ((cfg0.win 1).blk t).view.emb (ix2 p q) = ix2 B N := by
    funext a
    apply Fin.ext
    match a with
    | ⟨0, _⟩ => show win0_1.index t 0 * 8 + 1 * p.val = B.val; rw [(idx1 t).1, hB]; omega
    | ⟨1, _⟩ => show win0_1.index t 1 * 32768 + 1 * q.val = N.val; rw [(idx1 t).2, hN]; omega
  unfold iblk
  generalize V m c (Pipeline.arrRef spec0 (1 : Fin cfg0.W)) = A
  rw [View.read_apply]
  rw [he]
  exact eq_of_heq (cast_heq _ _)

set_option maxRecDepth 400000 in
theorem blk1_apply (c : Dev nD) (t : Fin cfg0.N) (p : Fin 8) (q : Fin 32768) (B : Fin 16) (N : Fin 262144)
    (hB : B.val = p.val + 8 * (t.val / 8)) (hN : N.val = q.val + 32768 * (t.val % 8)) :
    iblk m c 1 t (ix2 p q) = V m c main_v1 (ix2 B N) :=
  (blk1_window m c t p q B N hB hN).trans (congrFun (V1_eq m c) (ix2 B N))

/-- Window 2's block at a grid point is the piece of the window's array at row `8 · half + p`, pixel `32768 · tile + q`. -/
theorem blk2_window (c : Dev nD) (t : Fin cfg0.N) (k : Fin 5) (p : Fin 8) (q : Fin 32768) (B : Fin 16) (N : Fin 262144)
    (hB : B.val = p.val + 8 * (t.val / 8)) (hN : N.val = q.val + 32768 * (t.val % 8)) :
    iblk m c 2 t (ix3 k p q) = V m c (Pipeline.arrRef spec0 (2 : Fin cfg0.W)) (ix3 k B N) := by
  have he : ((cfg0.win 2).blk t).view.emb (ix3 k p q) = ix3 k B N := by
    funext a
    apply Fin.ext
    match a with
    | ⟨0, _⟩ => show win0_2.index t 0 * 5 + 1 * k.val = k.val; rw [(idx2 t).1]; omega
    | ⟨1, _⟩ => show win0_2.index t 1 * 8 + 1 * p.val = B.val; rw [(idx2 t).2.1, hB]; omega
    | ⟨2, _⟩ => show win0_2.index t 2 * 32768 + 1 * q.val = N.val; rw [(idx2 t).2.2, hN]; omega
  unfold iblk
  generalize V m c (Pipeline.arrRef spec0 (2 : Fin cfg0.W)) = A
  rw [View.read_apply]
  rw [he]
  exact eq_of_heq (cast_heq _ _)

set_option maxRecDepth 400000 in
theorem blk2_apply (c : Dev nD) (t : Fin cfg0.N) (k : Fin 5) (p : Fin 8) (q : Fin 32768) (B : Fin 16) (N : Fin 262144)
    (hB : B.val = p.val + 8 * (t.val / 8)) (hN : N.val = q.val + 32768 * (t.val % 8)) :
    iblk m c 2 t (ix3 k p q) = V m c main_v9 (ix3 k B N) :=
  (blk2_window m c t k p q B N hB hN).trans (congrFun (V2_eq m c) (ix3 k B N))

/-- Window 3's block at a grid point is the piece of the window's array at row `8 · half + p`, pixel `32768 · tile + q`. -/
theorem blk3_window (c : Dev nD) (t : Fin cfg0.N) (k : Fin 5) (p : Fin 8) (q : Fin 32768) (B : Fin 16) (N : Fin 262144)
    (hB : B.val = p.val + 8 * (t.val / 8)) (hN : N.val = q.val + 32768 * (t.val % 8)) :
    iblk m c 3 t (ix3 k p q) = V m c (Pipeline.arrRef spec0 (3 : Fin cfg0.W)) (ix3 k B N) := by
  have he : ((cfg0.win 3).blk t).view.emb (ix3 k p q) = ix3 k B N := by
    funext a
    apply Fin.ext
    match a with
    | ⟨0, _⟩ => show win0_3.index t 0 * 5 + 1 * k.val = k.val; rw [(idx3 t).1]; omega
    | ⟨1, _⟩ => show win0_3.index t 1 * 8 + 1 * p.val = B.val; rw [(idx3 t).2.1, hB]; omega
    | ⟨2, _⟩ => show win0_3.index t 2 * 32768 + 1 * q.val = N.val; rw [(idx3 t).2.2, hN]; omega
  unfold iblk
  generalize V m c (Pipeline.arrRef spec0 (3 : Fin cfg0.W)) = A
  rw [View.read_apply]
  rw [he]
  exact eq_of_heq (cast_heq _ _)

set_option maxRecDepth 400000 in
theorem blk3_apply (c : Dev nD) (t : Fin cfg0.N) (k : Fin 5) (p : Fin 8) (q : Fin 32768) (B : Fin 16) (N : Fin 262144)
    (hB : B.val = p.val + 8 * (t.val / 8)) (hN : N.val = q.val + 32768 * (t.val % 8)) :
    iblk m c 3 t (ix3 k p q) = V m c main_v11 (ix3 k B N) :=
  (blk3_window m c t k p q B N hB hN).trans (congrFun (V3_eq m c) (ix3 k B N))

/-- A point's tile sum, over the whole arrays. -/
theorem tileSum_eq (c : Dev nD) (t : Fin cfg0.N) (bi : Fin 2) (ni : Fin 8) (ht : t.val = 8 * bi.val + ni.val) :
    tileSum m c t = ∑ p : Fin 8, ∑ q : Fin 32768,
      pixelGap (V m c main_v0) (V m c main_v9) (V m c main_v1) (V m c main_v11) (rowOf bi p) (pixOf ni q) := by
  have hni := ni.isLt
  have hB : ∀ p : Fin 8, (rowOf bi p).val = p.val + 8 * (t.val / 8) := fun p => by rw [rowOf_val, ht]; omega
  have hN : ∀ q : Fin 32768, (pixOf ni q).val = q.val + 32768 * (t.val % 8) := fun q => by rw [pixOf_val, ht]; omega
  have e0 : ∀ (p : Fin 8) (q : Fin 32768),
      tvec (iblk m c 0 t) (iblk m c 2 t) p q = dvec (V m c main_v0) (V m c main_v9) (rowOf bi p) (pixOf ni q) :=
    fun p q => funext fun k' =>
      (congrArg₂ (fun a b : EReal => a - b) (blk0_apply m c t p q (rowOf bi p) (pixOf ni q) (hB p) (hN q))
        (blk2_apply m c t k' p q (rowOf bi p) (pixOf ni q) (hB p) (hN q)) :)
  have e1 : ∀ (p : Fin 8) (q : Fin 32768),
      tvec (iblk m c 1 t) (iblk m c 3 t) p q = dvec (V m c main_v1) (V m c main_v11) (rowOf bi p) (pixOf ni q) :=
    fun p q => funext fun k' =>
      (congrArg₂ (fun a b : EReal => a - b) (blk1_apply m c t p q (rowOf bi p) (pixOf ni q) (hB p) (hN q))
        (blk3_apply m c t k' p q (rowOf bi p) (pixOf ni q) (hB p) (hN q)) :)
  exact Finset.sum_congr rfl fun p _ => Finset.sum_congr rfl fun q _ => Finset.sum_congr rfl fun k _ =>
    congrArg₂ (fun a b => gapAt a b k) (e0 p q) (e1 p q)

/-! ## The result -/

/-- The two halves' entries add up to the sum over all rows and pixels. -/
theorem halves_sum (c : Dev nD) :
    entry m c 0 + entry m c 1
      = ∑ b : Fin 16, ∑ n : Fin 262144, pixelGap (V m c main_v0) (V m c main_v9) (V m c main_v1) (V m c main_v11) b n := by
  have hN : cfg0.N = 16 := N_0
  rw [entry0, entry1, sum_tiles, Fin.sum_univ_two, Finset.sum_range, Finset.sum_range]
  refine congrArg₂ (· + ·) (Finset.sum_congr rfl fun ni _ => ?_) (Finset.sum_congr rfl fun ni _ => ?_)
  · have h : ni.val < cfg0.N := by have := ni.isLt; omega
    rw [TS_eq m c ni.val h]
    exact tileSum_eq m c ⟨ni.val, h⟩ 0 ni (by show ni.val = 8 * 0 + ni.val; omega)
  · have h : 8 + ni.val < cfg0.N := by have := ni.isLt; omega
    rw [TS_eq m c (8 + ni.val) h]
    exact tileSum_eq m c ⟨8 + ni.val, h⟩ 1 ni (by show 8 + ni.val = 8 * 1 + ni.val; omega)

/-- The lines after the region, on the extended reals: the two entries added, over 1310720, over 16. -/
theorem tail_apply (h : (⟨S2x1x1, .f32⟩ : BufTy).Contents (Elt Ideal)) (j : S_.Idx) :
    tail (F := Ideal) h j
      = Ideal.div (Ideal.div (h (ix3 (0 : Fin 2) (0 : Fin 1) (0 : Fin 1)) + h (ix3 (1 : Fin 2) (0 : Fin 1) (0 : Fin 1)))
          (Ideal.ofBits .f32 0x49A00000#32)) (Ideal.ofBits .f32 0x41800000#32) := by
  unfold tail
  rw [hostDivf_apply, hostDivf_apply, hostReduceAdd_apply, constant_apply, constant_apply, constant_apply,
    Ideal.hostReduceAdd_total reducesTo_S2x1x1_S_d0_1_2 (fun a => a.elim0), Ideal.ofBits_zero_f32, zero_add, sum_idx3]
  simp only [Fin.sum_univ_two, Fin.sum_univ_one]

/-- THE KERNEL'S RESULT: the sum over all rows and pixels of the pixel's gaps, over the count of summands. -/
theorem result_val (c : Dev nD) :
    tail (F := Ideal) (halves m c) = fun _ => Ideal.div
      (∑ b : Fin 16, ∑ n : Fin 262144, pixelGap (V m c main_v0) (V m c main_v9) (V m c main_v1) (V m c main_v11) b n)
      (Ideal.ofBits .f32 0x4BA00000#32) := by
  funext j
  rw [tail_apply]
  show Ideal.div (Ideal.div (entry m c 0 + entry m c 1) _) _ = _
  rw [halves_sum, div_div_count]

end Cert.KernelIdeal.KSum

end
-- ==== Proof.lean ====
/-
  The kernel and its reference compute one loss, at the extended reals.

  Both programs take two batches of sixteen 512 × 512 images and five rows of pixel indices per image. A batch is
  flattened to rows of 262144 pixels; every row is read through its five index rows (an index below zero is shifted
  up by the row length; where the shifted index is outside the row the read gives a fill word), and the read copy is
  subtracted from the row, so that every pixel carries a vector of five differences. Each vector is divided by its
  Euclidean length, by one when the length is zero. The loss is the sum, over all pixels and the five components, of
  the absolute difference between the prediction's and the target's unit vectors, divided by the number of summands,
  16 · 262144 · 5.

  The reference does this on whole arrays. The kernel gathers both batches at once (stacked on a last axis of length
  two), then walks a 2 × 8 grid of tiles of 8 rows by 32768 pixels: at each tile it adds the tile's sum of gaps to a
  one-element accumulator, which it zeroes at the first tile of each half of the batch and writes out at the last; the
  two halves' sums are then added and divided by 262144 · 5 and by 16.

  Index by index the two are the same function of the arguments:
  * the kernel's stacked gather and the reference's two gathers read the same pixel (same row, the same clamped
    index, the same inside-the-row mask and fill word);
  * a window's block at a grid point sits in its array at row 8 · half + row and pixel 32768 · tile + pixel, so the
    tile sums are sums over disjoint pieces of the reference's one sum, and a finite sum of extended reals may be
    taken in any order and grouping;
  * dividing by 1310720 and then by 16 is dividing by 20971520 on every extended real, the divisors being nonzero reals.
  No finiteness of the inputs is used: the precondition is never opened.

  The frames of the two kernel programs are the generated ones; the reference's frame is its run with the result
  dropped. The idealization rewrote nothing, so the preservation claim is trivial.
-/
import proofs.«138854_j16561393893906_2_alg».proof.Defs
import proofs.«138854_j16561393893906_2_alg».proof.Proof.Gen.Kernel
import proofs.«138854_j16561393893906_2_alg».proof.Proof.Gen.Kernel.Skeleton
import proofs.«138854_j16561393893906_2_alg».proof.Proof.Gen.Kernel.Launch
import proofs.«138854_j16561393893906_2_alg».proof.Proof.Gen.Kernel.Points
import proofs.«138854_j16561393893906_2_alg».proof.Proof.Gen.Kernel.Frame
import proofs.«138854_j16561393893906_2_alg».proof.Proof.Gen.KernelIdeal
import proofs.«138854_j16561393893906_2_alg».proof.Proof.Gen.KernelIdeal.Skeleton
import proofs.«138854_j16561393893906_2_alg».proof.Proof.Gen.KernelIdeal.Launch
import proofs.«138854_j16561393893906_2_alg».proof.Proof.Gen.KernelIdeal.Points
import proofs.«138854_j16561393893906_2_alg».proof.Proof.Gen.KernelIdeal.Frame
import proofs.«138854_j16561393893906_2_alg».proof.Proof.Gen.ReferenceIdeal
import proofs.«138854_j16561393893906_2_alg».proof.Proof.Gen.Pre_finite_inputs
import proofs.«138854_j16561393893906_2_alg».proof.Proof.RefRun
import proofs.«138854_j16561393893906_2_alg».proof.Proof.RefSide
import proofs.«138854_j16561393893906_2_alg».proof.Proof.KHost
import proofs.«138854_j16561393893906_2_alg».proof.Proof.HostBridge
import proofs.«138854_j16561393893906_2_alg».proof.Proof.KFinal
import proofs.«138854_j16561393893906_2_alg».proof.Proof.KSum
import Idealize.ShloMosaic.Adequacy
import Idealize.ShloMosaic.Init

noncomputable section

namespace Cert.Proof

open Idealize.ShloMosaic Idealize.SL.Sem

/-- The kernel's frame: the generated one. -/
theorem frame_kernel : Cert.frame_Kernel (hKernel := Cert.Kernel.Gen.facts) (hPre_finite_inputs := Cert.Pre_finite_inputs.Gen.facts) :=
  fun m ρ _ => Cert.Kernel.Gen.frame m ρ

/-- The idealized kernel's frame: the generated one. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- The kernel's result is the reference's loss of the same arguments: both are the sum over all rows and pixels of
    the pixel's five gaps, over the count of summands — the kernel's four input arrays being the reference's rows and
    gathered rows. -/
theorem kernel_result (m : (ℓ : Loc Cert.KernelIdeal.nD Cert.KernelIdeal.τ Cert.KernelIdeal.sig) → Buf (Elt Ideal) ℓ)
    (c : Dev Cert.KernelIdeal.nD) :
    Cert.KernelIdeal.KFinal.tail (F := Ideal) (Cert.KernelIdeal.KFinal.halves m c)
      = Cert.ReferenceIdeal.RefRun.loss (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  rw [Cert.KernelIdeal.KSum.result_val, Cert.ReferenceIdeal.RefSide.loss_eq,
    Cert.KernelIdeal.KHost.V_rows0, Cert.KernelIdeal.KHost.V_rows1, Cert.KernelIdeal.KHost.V_taken0, Cert.KernelIdeal.KHost.V_taken1,
    Cert.HostBridge.taken0_eq, Cert.HostBridge.taken1_eq, Cert.HostBridge.rows_eq, Cert.HostBridge.rows_eq]

/-- From memories that agree on the arguments both programs run, and end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KFinal.tail (F := Ideal) (Cert.KernelIdeal.KFinal.halves m c),
    Cert.KernelIdeal.KFinal.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact (kernel_result m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
